-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S5x16x256x256 : Shape := ⟨4, ![5, 16, 256, 256]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S5x16x256x256 : S_.BroadcastsInDim S5x16x256x256 (![] : Fin 0 → Fin S5x16x256x256.rank)
  reducesTo_S5x16x256x256_S_d0_1_2_3 : S5x16x256x256.ReducesTo [0, 1, 2, 3] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S5x16x256x256 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S5x16x256x256 .f32 := Host.absf main_arg1
  let main_cst_0 : FVec F S_ .f32 := constant S_ .f32 0x7F800000#32
  let main_v5 : FVec F S5x16x256x256 .f32 := broadcastInDim S5x16x256x256 ![] bcast_S_S5x16x256x256 main_cst_0
  let main_v6 : IVec S5x16x256x256 1 := cmpf .olt main_v4 main_v5
  let main_c_1 : IVec S_ 1 := constantI S_ 1 1#1
  let main_v7 : IVec S_ 1 := (fun x v => Host.reduce IntOp.andi x v reducesTo_S5x16x256x256_S_d0_1_2_3 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S5x16x256x256 : Shape := ⟨4, ![5, 16, 256, 256]⟩
abbrev S4096 : Shape := ⟨1, ![4096]⟩
abbrev S1x4096 : Shape := ⟨2, ![1, 4096]⟩
abbrev S512x4096 : Shape := ⟨2, ![512, 4096]⟩
abbrev S512x256 : Shape := ⟨2, ![512, 256]⟩
abbrev S1x1x256x256 : Shape := ⟨4, ![1, 1, 256, 256]⟩
abbrev S256x256 : Shape := ⟨2, ![256, 256]⟩
abbrev S1x256 : Shape := ⟨2, ![1, 256]⟩
abbrev S256 : Shape := ⟨1, ![256]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S5x16x256x256, .f32⟩
  | .hbm, ⟨2, _⟩ => ⟨S4096, .f32⟩
  | .hbm, ⟨3, _⟩ => ⟨S5x16x256x256, .bf16⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S5x16x256x256, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x16x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  slices_S512x4096_o0_0_S512x256 : S512x4096.Slices ![0, 0] S512x256
  inb_S5x16x256x256_S1x1x256x256_0_0_0_0 : ∀ a, (![0, 0, 0, 0] : Fin 4 → Nat) a + S1x1x256x256.size a ≤ S5x16x256x256.size a
  h_S1x1x256x256 : 0 < S1x1x256x256.numel
  shapeCasts_S1x1x256x256_S256x256 : S1x1x256x256.ShapeCasts S256x256
  slices_S512x4096_o0_256_S512x256 : S512x4096.Slices ![0, 256] S512x256
  inb_S5x16x256x256_S1x1x256x256_1_1_0_0 : ∀ a, (![1, 1, 0, 0] : Fin 4 → Nat) a + S1x1x256x256.size a ≤ S5x16x256x256.size a
  slices_S512x4096_o0_512_S512x256 : S512x4096.Slices ![0, 512] S512x256
  inb_S5x16x256x256_S1x1x256x256_2_2_0_0 : ∀ a, (![2, 2, 0, 0] : Fin 4 → Nat) a + S1x1x256x256.size a ≤ S5x16x256x256.size a
  slices_S512x4096_o0_1024_S512x256 : S512x4096.Slices ![0, 1024] S512x256
  inb_S5x16x256x256_S1x1x256x256_3_4_0_0 : ∀ a, (![3, 4, 0, 0] : Fin 4 → Nat) a + S1x1x256x256.size a ≤ S5x16x256x256.size a
  slices_S512x4096_o0_2048_S512x256 : S512x4096.Slices ![0, 2048] S512x256
  inb_S5x16x256x256_S1x1x256x256_4_8_0_0 : ∀ a, (![4, 8, 0, 0] : Fin 4 → Nat) a + S1x1x256x256.size a ≤ S5x16x256x256.size a
  inb_S1x4096_S1x256_0_0 : ∀ a, (![0, 0] : Fin 2 → Nat) a + S1x256.size a ≤ S1x4096.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S512x4096_S512x256_0_0 : ∀ a, (![0, 0] : Fin 2 → Nat) a + S512x256.size a ≤ S512x4096.size a
  h_S512x256 : 0 < S512x256.numel
  inb_S5x16x256x256_S1x1x256x256_0_1_0_0 : ∀ a, (![0, 1, 0, 0] : Fin 4 → Nat) a + S1x1x256x256.size a ≤ S5x16x256x256.size a
  inb_S5x16x256x256_S1x1x256x256_1_0_0_0 : ∀ a, (![1, 0, 0, 0] : Fin 4 → Nat) a + S1x1x256x256.size a ≤ S5x16x256x256.size a
  slices_S512x4096_o0_768_S512x256 : S512x4096.Slices ![0, 768] S512x256
  inb_S5x16x256x256_S1x1x256x256_2_3_0_0 : ∀ a, (![2, 3, 0, 0] : Fin 4 → Nat) a + S1x1x256x256.size a ≤ S5x16x256x256.size a
  slices_S512x4096_o0_1280_S512x256 : S512x4096.Slices ![0, 1280] S512x256
  inb_S5x16x256x256_S1x1x256x256_3_5_0_0 : ∀ a, (![3, 5, 0, 0] : Fin 4 → Nat) a + S1x1x256x256.size a ≤ S5x16x256x256.size a
  slices_S512x4096_o0_2304_S512x256 : S512x4096.Slices ![0, 2304] S512x256
  inb_S5x16x256x256_S1x1x256x256_4_9_0_0 : ∀ a, (![4, 9, 0, 0] : Fin 4 → Nat) a + S1x1x256x256.size a ≤ S5x16x256x256.size a
  inb_S1x4096_S1x256_0_256 : ∀ a, (![0, 256] : Fin 2 → Nat) a + S1x256.size a ≤ S1x4096.size a
  inb_S512x4096_S512x256_0_256 : ∀ a, (![0, 256] : Fin 2 → Nat) a + S512x256.size a ≤ S512x4096.size a
  inb_S5x16x256x256_S1x1x256x256_0_2_0_0 : ∀ a, (![0, 2, 0, 0] : Fin 4 → Nat) a + S1x1x256x256.size a ≤ S5x16x256x256.size a
  inb_S5x16x256x256_S1x1x256x256_1_3_0_0 : ∀ a, (![1, 3, 0, 0] : Fin 4 → Nat) a + S1x1x256x256.size a ≤ S5x16x256x256.size a
  inb_S5x16x256x256_S1x1x256x256_2_0_0_0 : ∀ a, (![2, 0, 0, 0] : Fin 4 → Nat) a + S1x1x256x256.size a ≤ S5x16x256x256.size a
  slices_S512x4096_o0_1536_S512x256 : S512x4096.Slices ![0, 1536] S512x256
  inb_S5x16x256x256_S1x1x256x256_3_6_0_0 : ∀ a, (![3, 6, 0, 0] : Fin 4 → Nat) a + S1x1x256x256.size a ≤ S5x16x256x256.size a
  slices_S512x4096_o0_2560_S512x256 : S512x4096.Slices ![0, 2560] S512x256
  inb_S5x16x256x256_S1x1x256x256_4_10_0_0 : ∀ a, (![4, 10, 0, 0] : Fin 4 → Nat) a + S1x1x256x256.size a ≤ S5x16x256x256.size a
  inb_S1x4096_S1x256_0_512 : ∀ a, (![0, 512] : Fin 2 → Nat) a + S1x256.size a ≤ S1x4096.size a
  inb_S512x4096_S512x256_0_512 : ∀ a, (![0, 512] : Fin 2 → Nat) a + S512x256.size a ≤ S512x4096.size a
  inb_S5x16x256x256_S1x1x256x256_0_3_0_0 : ∀ a, (![0, 3, 0, 0] : Fin 4 → Nat) a + S1x1x256x256.size a ≤ S5x16x256x256.size a
  inb_S5x16x256x256_S1x1x256x256_1_2_0_0 : ∀ a, (![1, 2, 0, 0] : Fin 4 → Nat) a + S1x1x256x256.size a ≤ S5x16x256x256.size a
  inb_S5x16x256x256_S1x1x256x256_2_1_0_0 : ∀ a, (![2, 1, 0, 0] : Fin 4 → Nat) a + S1x1x256x256.size a ≤ S5x16x256x256.size a
  slices_S512x4096_o0_1792_S512x256 : S512x4096.Slices ![0, 1792] S512x256
  inb_S5x16x256x256_S1x1x256x256_3_7_0_0 : ∀ a, (![3, 7, 0, 0] : Fin 4 → Nat) a + S1x1x256x256.size a ≤ S5x16x256x256.size a
  slices_S512x4096_o0_2816_S512x256 : S512x4096.Slices ![0, 2816] S512x256
  inb_S5x16x256x256_S1x1x256x256_4_11_0_0 : ∀ a, (![4, 11, 0, 0] : Fin 4 → Nat) a + S1x1x256x256.size a ≤ S5x16x256x256.size a
  inb_S1x4096_S1x256_0_768 : ∀ a, (![0, 768] : Fin 2 → Nat) a + S1x256.size a ≤ S1x4096.size a
  inb_S512x4096_S512x256_0_768 : ∀ a, (![0, 768] : Fin 2 → Nat) a + S512x256.size a ≤ S512x4096.size a
  inb_S5x16x256x256_S1x1x256x256_0_4_0_0 : ∀ a, (![0, 4, 0, 0] : Fin 4 → Nat) a + S1x1x256x256.size a ≤ S5x16x256x256.size a
  inb_S5x16x256x256_S1x1x256x256_1_5_0_0 : ∀ a, (![1, 5, 0, 0] : Fin 4 → Nat) a + S1x1x256x256.size a ≤ S5x16x256x256.size a
  inb_S5x16x256x256_S1x1x256x256_2_6_0_0 : ∀ a, (![2, 6, 0, 0] : Fin 4 → Nat) a + S1x1x256x256.size a ≤ S5x16x256x256.size a
  inb_S5x16x256x256_S1x1x256x256_3_0_0_0 : ∀ a, (![3, 0, 0, 0] : Fin 4 → Nat) a + S1x1x256x256.size a ≤ S5x16x256x256.size a
  slices_S512x4096_o0_3072_S512x256 : S512x4096.Slices ![0, 3072] S512x256
  inb_S5x16x256x256_S1x1x256x256_4_12_0_0 : ∀ a, (![4, 12, 0, 0] : Fin 4 → Nat) a + S1x1x256x256.size a ≤ S5x16x256x256.size a
  inb_S1x4096_S1x256_0_1024 : ∀ a, (![0, 1024] : Fin 2 → Nat) a + S1x256.size a ≤ S1x4096.size a
  inb_S512x4096_S512x256_0_1024 : ∀ a, (![0, 1024] : Fin 2 → Nat) a + S512x256.size a ≤ S512x4096.size a
  inb_S5x16x256x256_S1x1x256x256_0_5_0_0 : ∀ a, (![0, 5, 0, 0] : Fin 4 → Nat) a + S1x1x256x256.size a ≤ S5x16x256x256.size a
  inb_S5x16x256x256_S1x1x256x256_1_4_0_0 : ∀ a, (![1, 4, 0, 0] : Fin 4 → Nat) a + S1x1x256x256.size a ≤ S5x16x256x256.size a
  inb_S5x16x256x256_S1x1x256x256_2_7_0_0 : ∀ a, (![2, 7, 0, 0] : Fin 4 → Nat) a + S1x1x256x256.size a ≤ S5x16x256x256.size a
  inb_S5x16x256x256_S1x1x256x256_3_1_0_0 : ∀ a, (![3, 1, 0, 0] : Fin 4 → Nat) a + S1x1x256x256.size a ≤ S5x16x256x256.size a
  slices_S512x4096_o0_3328_S512x256 : S512x4096.Slices ![0, 3328] S512x256
  inb_S5x16x256x256_S1x1x256x256_4_13_0_0 : ∀ a, (![4, 13, 0, 0] : Fin 4 → Nat) a + S1x1x256x256.size a ≤ S5x16x256x256.size a
  inb_S1x4096_S1x256_0_1280 : ∀ a, (![0, 1280] : Fin 2 → Nat) a + S1x256.size a ≤ S1x4096.size a
  inb_S512x4096_S512x256_0_1280 : ∀ a, (![0, 1280] : Fin 2 → Nat) a + S512x256.size a ≤ S512x4096.size a
  inb_S5x16x256x256_S1x1x256x256_0_6_0_0 : ∀ a, (![0, 6, 0, 0] : Fin 4 → Nat) a + S1x1x256x256.size a ≤ S5x16x256x256.size a
  inb_S5x16x256x256_S1x1x256x256_1_7_0_0 : ∀ a, (![1, 7, 0, 0] : Fin 4 → Nat) a + S1x1x256x256.size a ≤ S5x16x256x256.size a
  inb_S5x16x256x256_S1x1x256x256_2_4_0_0 : ∀ a, (![2, 4, 0, 0] : Fin 4 → Nat) a + S1x1x256x256.size a ≤ S5x16x256x256.size a
  inb_S5x16x256x256_S1x1x256x256_3_2_0_0 : ∀ a, (![3, 2, 0, 0] : Fin 4 → Nat) a + S1x1x256x256.size a ≤ S5x16x256x256.size a
  slices_S512x4096_o0_3584_S512x256 : S512x4096.Slices ![0, 3584] S512x256
  inb_S5x16x256x256_S1x1x256x256_4_14_0_0 : ∀ a, (![4, 14, 0, 0] : Fin 4 → Nat) a + S1x1x256x256.size a ≤ S5x16x256x256.size a
  inb_S1x4096_S1x256_0_1536 : ∀ a, (![0, 1536] : Fin 2 → Nat) a + S1x256.size a ≤ S1x4096.size a
  inb_S512x4096_S512x256_0_1536 : ∀ a, (![0, 1536] : Fin 2 → Nat) a + S512x256.size a ≤ S512x4096.size a
  inb_S5x16x256x256_S1x1x256x256_0_7_0_0 : ∀ a, (![0, 7, 0, 0] : Fin 4 → Nat) a + S1x1x256x256.size a ≤ S5x16x256x256.size a
  inb_S5x16x256x256_S1x1x256x256_1_6_0_0 : ∀ a, (![1, 6, 0, 0] : Fin 4 → Nat) a + S1x1x256x256.size a ≤ S5x16x256x256.size a
  inb_S5x16x256x256_S1x1x256x256_2_5_0_0 : ∀ a, (![2, 5, 0, 0] : Fin 4 → Nat) a + S1x1x256x256.size a ≤ S5x16x256x256.size a
  inb_S5x16x256x256_S1x1x256x256_3_3_0_0 : ∀ a, (![3, 3, 0, 0] : Fin 4 → Nat) a + S1x1x256x256.size a ≤ S5x16x256x256.size a
  slices_S512x4096_o0_3840_S512x256 : S512x4096.Slices ![0, 3840] S512x256
  inb_S5x16x256x256_S1x1x256x256_4_15_0_0 : ∀ a, (![4, 15, 0, 0] : Fin 4 → Nat) a + S1x1x256x256.size a ≤ S5x16x256x256.size a
  inb_S1x4096_S1x256_0_1792 : ∀ a, (![0, 1792] : Fin 2 → Nat) a + S1x256.size a ≤ S1x4096.size a
  inb_S512x4096_S512x256_0_1792 : ∀ a, (![0, 1792] : Fin 2 → Nat) a + S512x256.size a ≤ S512x4096.size a
  inb_S5x16x256x256_S1x1x256x256_0_8_0_0 : ∀ a, (![0, 8, 0, 0] : Fin 4 → Nat) a + S1x1x256x256.size a ≤ S5x16x256x256.size a
  inb_S5x16x256x256_S1x1x256x256_1_9_0_0 : ∀ a, (![1, 9, 0, 0] : Fin 4 → Nat) a + S1x1x256x256.size a ≤ S5x16x256x256.size a
  inb_S5x16x256x256_S1x1x256x256_2_10_0_0 : ∀ a, (![2, 10, 0, 0] : Fin 4 → Nat) a + S1x1x256x256.size a ≤ S5x16x256x256.size a
  inb_S5x16x256x256_S1x1x256x256_3_12_0_0 : ∀ a, (![3, 12, 0, 0] : Fin 4 → Nat) a + S1x1x256x256.size a ≤ S5x16x256x256.size a
  inb_S5x16x256x256_S1x1x256x256_4_0_0_0 : ∀ a, (![4, 0, 0, 0] : Fin 4 → Nat) a + S1x1x256x256.size a ≤ S5x16x256x256.size a
  inb_S1x4096_S1x256_0_2048 : ∀ a, (![0, 2048] : Fin 2 → Nat) a + S1x256.size a ≤ S1x4096.size a
  inb_S512x4096_S512x256_0_2048 : ∀ a, (![0, 2048] : Fin 2 → Nat) a + S512x256.size a ≤ S512x4096.size a
  inb_S5x16x256x256_S1x1x256x256_0_9_0_0 : ∀ a, (![0, 9, 0, 0] : Fin 4 → Nat) a + S1x1x256x256.size a ≤ S5x16x256x256.size a
  inb_S5x16x256x256_S1x1x256x256_1_8_0_0 : ∀ a, (![1, 8, 0, 0] : Fin 4 → Nat) a + S1x1x256x256.size a ≤ S5x16x256x256.size a
  inb_S5x16x256x256_S1x1x256x256_2_11_0_0 : ∀ a, (![2, 11, 0, 0] : Fin 4 → Nat) a + S1x1x256x256.size a ≤ S5x16x256x256.size a
  inb_S5x16x256x256_S1x1x256x256_3_13_0_0 : ∀ a, (![3, 13, 0, 0] : Fin 4 → Nat) a + S1x1x256x256.size a ≤ S5x16x256x256.size a
  inb_S5x16x256x256_S1x1x256x256_4_1_0_0 : ∀ a, (![4, 1, 0, 0] : Fin 4 → Nat) a + S1x1x256x256.size a ≤ S5x16x256x256.size a
  inb_S1x4096_S1x256_0_2304 : ∀ a, (![0, 2304] : Fin 2 → Nat) a + S1x256.size a ≤ S1x4096.size a
  inb_S512x4096_S512x256_0_2304 : ∀ a, (![0, 2304] : Fin 2 → Nat) a + S512x256.size a ≤ S512x4096.size a
  inb_S5x16x256x256_S1x1x256x256_0_10_0_0 : ∀ a, (![0, 10, 0, 0] : Fin 4 → Nat) a + S1x1x256x256.size a ≤ S5x16x256x256.size a
  inb_S5x16x256x256_S1x1x256x256_1_11_0_0 : ∀ a, (![1, 11, 0, 0] : Fin 4 → Nat) a + S1x1x256x256.size a ≤ S5x16x256x256.size a
  inb_S5x16x256x256_S1x1x256x256_2_8_0_0 : ∀ a, (![2, 8, 0, 0] : Fin 4 → Nat) a + S1x1x256x256.size a ≤ S5x16x256x256.size a
  inb_S5x16x256x256_S1x1x256x256_3_14_0_0 : ∀ a, (![3, 14, 0, 0] : Fin 4 → Nat) a + S1x1x256x256.size a ≤ S5x16x256x256.size a
  inb_S5x16x256x256_S1x1x256x256_4_2_0_0 : ∀ a, (![4, 2, 0, 0] : Fin 4 → Nat) a + S1x1x256x256.size a ≤ S5x16x256x256.size a
  inb_S1x4096_S1x256_0_2560 : ∀ a, (![0, 2560] : Fin 2 → Nat) a + S1x256.size a ≤ S1x4096.size a
  inb_S512x4096_S512x256_0_2560 : ∀ a, (![0, 2560] : Fin 2 → Nat) a + S512x256.size a ≤ S512x4096.size a
  inb_S5x16x256x256_S1x1x256x256_0_11_0_0 : ∀ a, (![0, 11, 0, 0] : Fin 4 → Nat) a + S1x1x256x256.size a ≤ S5x16x256x256.size a
  inb_S5x16x256x256_S1x1x256x256_1_10_0_0 : ∀ a, (![1, 10, 0, 0] : Fin 4 → Nat) a + S1x1x256x256.size a ≤ S5x16x256x256.size a
  inb_S5x16x256x256_S1x1x256x256_2_9_0_0 : ∀ a, (![2, 9, 0, 0] : Fin 4 → Nat) a + S1x1x256x256.size a ≤ S5x16x256x256.size a
  inb_S5x16x256x256_S1x1x256x256_3_15_0_0 : ∀ a, (![3, 15, 0, 0] : Fin 4 → Nat) a + S1x1x256x256.size a ≤ S5x16x256x256.size a
  inb_S5x16x256x256_S1x1x256x256_4_3_0_0 : ∀ a, (![4, 3, 0, 0] : Fin 4 → Nat) a + S1x1x256x256.size a ≤ S5x16x256x256.size a
  inb_S1x4096_S1x256_0_2816 : ∀ a, (![0, 2816] : Fin 2 → Nat) a + S1x256.size a ≤ S1x4096.size a
  inb_S512x4096_S512x256_0_2816 : ∀ a, (![0, 2816] : Fin 2 → Nat) a + S512x256.size a ≤ S512x4096.size a
  inb_S5x16x256x256_S1x1x256x256_0_12_0_0 : ∀ a, (![0, 12, 0, 0] : Fin 4 → Nat) a + S1x1x256x256.size a ≤ S5x16x256x256.size a
  inb_S5x16x256x256_S1x1x256x256_1_13_0_0 : ∀ a, (![1, 13, 0, 0] : Fin 4 → Nat) a + S1x1x256x256.size a ≤ S5x16x256x256.size a
  inb_S5x16x256x256_S1x1x256x256_2_14_0_0 : ∀ a, (![2, 14, 0, 0] : Fin 4 → Nat) a + S1x1x256x256.size a ≤ S5x16x256x256.size a
  inb_S5x16x256x256_S1x1x256x256_3_8_0_0 : ∀ a, (![3, 8, 0, 0] : Fin 4 → Nat) a + S1x1x256x256.size a ≤ S5x16x256x256.size a
  inb_S5x16x256x256_S1x1x256x256_4_4_0_0 : ∀ a, (![4, 4, 0, 0] : Fin 4 → Nat) a + S1x1x256x256.size a ≤ S5x16x256x256.size a
  inb_S1x4096_S1x256_0_3072 : ∀ a, (![0, 3072] : Fin 2 → Nat) a + S1x256.size a ≤ S1x4096.size a
  inb_S512x4096_S512x256_0_3072 : ∀ a, (![0, 3072] : Fin 2 → Nat) a + S512x256.size a ≤ S512x4096.size a
  inb_S5x16x256x256_S1x1x256x256_0_13_0_0 : ∀ a, (![0, 13, 0, 0] : Fin 4 → Nat) a + S1x1x256x256.size a ≤ S5x16x256x256.size a
  inb_S5x16x256x256_S1x1x256x256_1_12_0_0 : ∀ a, (![1, 12, 0, 0] : Fin 4 → Nat) a + S1x1x256x256.size a ≤ S5x16x256x256.size a
  inb_S5x16x256x256_S1x1x256x256_2_15_0_0 : ∀ a, (![2, 15, 0, 0] : Fin 4 → Nat) a + S1x1x256x256.size a ≤ S5x16x256x256.size a
  inb_S5x16x256x256_S1x1x256x256_3_9_0_0 : ∀ a, (![3, 9, 0, 0] : Fin 4 → Nat) a + S1x1x256x256.size a ≤ S5x16x256x256.size a
  inb_S5x16x256x256_S1x1x256x256_4_5_0_0 : ∀ a, (![4, 5, 0, 0] : Fin 4 → Nat) a + S1x1x256x256.size a ≤ S5x16x256x256.size a
  inb_S1x4096_S1x256_0_3328 : ∀ a, (![0, 3328] : Fin 2 → Nat) a + S1x256.size a ≤ S1x4096.size a
  inb_S512x4096_S512x256_0_3328 : ∀ a, (![0, 3328] : Fin 2 → Nat) a + S512x256.size a ≤ S512x4096.size a
  inb_S5x16x256x256_S1x1x256x256_0_14_0_0 : ∀ a, (![0, 14, 0, 0] : Fin 4 → Nat) a + S1x1x256x256.size a ≤ S5x16x256x256.size a
  inb_S5x16x256x256_S1x1x256x256_1_15_0_0 : ∀ a, (![1, 15, 0, 0] : Fin 4 → Nat) a + S1x1x256x256.size a ≤ S5x16x256x256.size a
  inb_S5x16x256x256_S1x1x256x256_2_12_0_0 : ∀ a, (![2, 12, 0, 0] : Fin 4 → Nat) a + S1x1x256x256.size a ≤ S5x16x256x256.size a
  inb_S5x16x256x256_S1x1x256x256_3_10_0_0 : ∀ a, (![3, 10, 0, 0] : Fin 4 → Nat) a + S1x1x256x256.size a ≤ S5x16x256x256.size a
  inb_S5x16x256x256_S1x1x256x256_4_6_0_0 : ∀ a, (![4, 6, 0, 0] : Fin 4 → Nat) a + S1x1x256x256.size a ≤ S5x16x256x256.size a
  inb_S1x4096_S1x256_0_3584 : ∀ a, (![0, 3584] : Fin 2 → Nat) a + S1x256.size a ≤ S1x4096.size a
  inb_S512x4096_S512x256_0_3584 : ∀ a, (![0, 3584] : Fin 2 → Nat) a + S512x256.size a ≤ S512x4096.size a
  inb_S5x16x256x256_S1x1x256x256_0_15_0_0 : ∀ a, (![0, 15, 0, 0] : Fin 4 → Nat) a + S1x1x256x256.size a ≤ S5x16x256x256.size a
  inb_S5x16x256x256_S1x1x256x256_1_14_0_0 : ∀ a, (![1, 14, 0, 0] : Fin 4 → Nat) a + S1x1x256x256.size a ≤ S5x16x256x256.size a
  inb_S5x16x256x256_S1x1x256x256_2_13_0_0 : ∀ a, (![2, 13, 0, 0] : Fin 4 → Nat) a + S1x1x256x256.size a ≤ S5x16x256x256.size a
  inb_S5x16x256x256_S1x1x256x256_3_11_0_0 : ∀ a, (![3, 11, 0, 0] : Fin 4 → Nat) a + S1x1x256x256.size a ≤ S5x16x256x256.size a
  inb_S5x16x256x256_S1x1x256x256_4_7_0_0 : ∀ a, (![4, 7, 0, 0] : Fin 4 → Nat) a + S1x1x256x256.size a ≤ S5x16x256x256.size a
  inb_S1x4096_S1x256_0_3840 : ∀ a, (![0, 3840] : Fin 2 → Nat) a + S1x256.size a ≤ S1x4096.size a
  inb_S512x4096_S512x256_0_3840 : ∀ a, (![0, 3840] : Fin 2 → Nat) a + S512x256.size a ≤ S512x4096.size a
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x16x256x256.size a ≤ S5x16x256x256.size a
  hwx0_1 : ∀ i : grid0.Coords, EltTy.bits .bf16 = 32 ∨ (Rect.block (s := S5x16x256x256) S5x16x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5x16x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S5x16x256x256 : Shape := ⟨4, ![5, 16, 256, 256]⟩
abbrev S4096 : Shape := ⟨1, ![4096]⟩
abbrev S16 : Shape := ⟨1, ![16]⟩
abbrev S_ : Shape := ⟨0, ![]⟩
abbrev S16x16x256x256 : Shape := ⟨4, ![16, 16, 256, 256]⟩
abbrev S1x16x256x256 : Shape := ⟨4, ![1, 16, 256, 256]⟩
abbrev S16x256x256 : Shape := ⟨3, ![16, 256, 256]⟩
abbrev S16x1 : Shape := ⟨2, ![16, 1]⟩
abbrev S16x2 : Shape := ⟨2, ![16, 2]⟩
abbrev S16x256x16x256 : Shape := ⟨4, ![16, 256, 16, 256]⟩
abbrev S4096x4096 : Shape := ⟨2, ![4096, 4096]⟩
abbrev S1x4096 : Shape := ⟨2, ![1, 4096]⟩

abbrev nBuf : Space → Nat
  | .hbm => 125
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S5x16x256x256, .f32⟩
  | .hbm, ⟨2, _⟩ => ⟨S4096, .f32⟩
  | .hbm, ⟨3, _⟩ => ⟨S16, .i32⟩
  | .hbm, ⟨4, _⟩ => ⟨S_, .f32⟩
  | .hbm, ⟨5, _⟩ => ⟨S16x16x256x256, .f32⟩
  | .hbm, ⟨6, _⟩ => ⟨S1x16x256x256, .f32⟩
  | .hbm, ⟨7, _⟩ => ⟨S16x256x256, .f32⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S16x1, .i32⟩
  | .hbm, ⟨24, _⟩ => ⟨S16x2, .i32⟩
  | .hbm, ⟨25, _⟩ => ⟨S16x16x256x256, .f32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S1x16x256x256, .f32⟩
  | .hbm, ⟨30, _⟩ => ⟨S16x256x256, .f32⟩
  | .hbm, ⟨31, _⟩ => ⟨S_, .i32⟩
  | .hbm, ⟨32, _⟩ => ⟨S16, .i32⟩
  | .hbm, ⟨33, _⟩ => ⟨S16, .i1⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S_, .i32⟩
  | .hbm, ⟨39, _⟩ => ⟨S16, .i32⟩
  | .hbm, ⟨40, _⟩ => ⟨S16, .i1⟩
  | .hbm, ⟨41, _⟩ => ⟨S_, .i32⟩
  | .hbm, ⟨42, _⟩ => ⟨S16, .i32⟩
  | .hbm, ⟨43, _⟩ => ⟨S16, .i32⟩
  | .hbm, ⟨44, _⟩ => ⟨S16, .i32⟩
  | .hbm, ⟨45, _⟩ => ⟨S16x1, .i32⟩
  | .hbm, ⟨46, _⟩ => ⟨S16x1, .i32⟩
  | .hbm, ⟨47, _⟩ => ⟨S16x2, .i32⟩
  | .hbm, ⟨48, _⟩ => ⟨S16x16x256x256, .f32⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S1x16x256x256, .f32⟩
  | .hbm, ⟨53, _⟩ => ⟨S16x256x256, .f32⟩
  | .hbm, ⟨54, _⟩ => ⟨S_, .i32⟩
  | .hbm, ⟨55, _⟩ => ⟨S16, .i32⟩
  | .hbm, ⟨56, _⟩ => ⟨S16, .i1⟩
  | .hbm, ⟨57, _⟩ => ⟨S_, .i32⟩
  | .hbm, ⟨58, _⟩ => ⟨S16, .i32⟩
  | .hbm, ⟨59, _⟩ => ⟨S16, .i32⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S_, .i32⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S16x1, .i32⟩
  | .hbm, ⟨69, _⟩ => ⟨S16x1, .i32⟩
  | .hbm, ⟨70, _⟩ => ⟨S16x2, .i32⟩
  | .hbm, ⟨71, _⟩ => ⟨S16x16x256x256, .f32⟩
  | .hbm, ⟨72, _⟩ => ⟨S_, .i32⟩
  | .hbm, ⟨73, _⟩ => ⟨S16, .i32⟩
  | .hbm, ⟨74, _⟩ => ⟨S16, .i32⟩
  | .hbm, ⟨75, _⟩ => ⟨S1x16x256x256, .f32⟩
  | .hbm, ⟨76, _⟩ => ⟨S16x256x256, .f32⟩
  | .hbm, ⟨77, _⟩ => ⟨S_, .i32⟩
  | .hbm, ⟨78, _⟩ => ⟨S16, .i32⟩
  | .hbm, ⟨79, _⟩ => ⟨S16, .i1⟩
  | .hbm, ⟨80, _⟩ => ⟨S_, .i32⟩
  | .hbm, ⟨81, _⟩ => ⟨S16, .i32⟩
  | .hbm, ⟨82, _⟩ => ⟨S16, .i32⟩
  | .hbm, ⟨83, _⟩ => ⟨S16, .i32⟩
  | .hbm, ⟨84, _⟩ => ⟨S_, .i32⟩
  | .hbm, ⟨85, _⟩ => ⟨S16, .i32⟩
  | .hbm, ⟨86, _⟩ => ⟨S16, .i1⟩
  | .hbm, ⟨87, _⟩ => ⟨S_, .i32⟩
  | .hbm, ⟨88, _⟩ => ⟨S16, .i32⟩
  | .hbm, ⟨89, _⟩ => ⟨S16, .i32⟩
  | .hbm, ⟨90, _⟩ => ⟨S16, .i32⟩
  | .hbm, ⟨91, _⟩ => ⟨S16x1, .i32⟩
  | .hbm, ⟨92, _⟩ => ⟨S16x1, .i32⟩
  | .hbm, ⟨93, _⟩ => ⟨S16x2, .i32⟩
  | .hbm, ⟨94, _⟩ => ⟨S16x16x256x256, .f32⟩
  | .hbm, ⟨95, _⟩ => ⟨S_, .i32⟩
  | .hbm, ⟨96, _⟩ => ⟨S16, .i32⟩
  | .hbm, ⟨97, _⟩ => ⟨S16, .i32⟩
  | .hbm, ⟨98, _⟩ => ⟨S1x16x256x256, .f32⟩
  | .hbm, ⟨99, _⟩ => ⟨S16x256x256, .f32⟩
  | .hbm, ⟨100, _⟩ => ⟨S_, .i32⟩
  | .hbm, ⟨101, _⟩ => ⟨S16, .i32⟩
  | .hbm, ⟨102, _⟩ => ⟨S16, .i1⟩
  | .hbm, ⟨103, _⟩ => ⟨S_, .i32⟩
  | .hbm, ⟨104, _⟩ => ⟨S16, .i32⟩
  | .hbm, ⟨105, _⟩ => ⟨S16, .i32⟩
  | .hbm, ⟨106, _⟩ => ⟨S16, .i32⟩
  | .hbm, ⟨107, _⟩ => ⟨S_, .i32⟩
  | .hbm, ⟨108, _⟩ => ⟨S16, .i32⟩
  | .hbm, ⟨109, _⟩ => ⟨S16, .i1⟩
  | .hbm, ⟨110, _⟩ => ⟨S_, .i32⟩
  | .hbm, ⟨111, _⟩ => ⟨S16, .i32⟩
  | .hbm, ⟨112, _⟩ => ⟨S16, .i32⟩
  | .hbm, ⟨113, _⟩ => ⟨S16, .i32⟩
  | .hbm, ⟨114, _⟩ => ⟨S16x1, .i32⟩
  | .hbm, ⟨115, _⟩ => ⟨S16x1, .i32⟩
  | .hbm, ⟨116, _⟩ => ⟨S16x2, .i32⟩
  | .hbm, ⟨117, _⟩ => ⟨S16x16x256x256, .f32⟩
  | .hbm, ⟨118, _⟩ => ⟨S16x256x16x256, .f32⟩
  | .hbm, ⟨119, _⟩ => ⟨S4096x4096, .f32⟩
  | .hbm, ⟨120, _⟩ => ⟨S4096x4096, .f32⟩
  | .hbm, ⟨121, _⟩ => ⟨S8192x4096, .f32⟩
  | .hbm, ⟨122, _⟩ => ⟨S1x4096, .f32⟩
  | .hbm, ⟨123, _⟩ => ⟨S8192x4096, .f32⟩
  | .hbm, ⟨124, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_9 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_11 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_14 : Ref sig .tc := ⟨.hbm, 77, rfl⟩
abbrev main_v58 : Ref sig .tc := ⟨.hbm, 78, rfl⟩
abbrev main_v59 : Ref sig .tc := ⟨.hbm, 79, rfl⟩
abbrev main_c_15 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_16 : Ref sig .tc := ⟨.hbm, 84, rfl⟩
abbrev main_v63 : Ref sig .tc := ⟨.hbm, 85, rfl⟩
abbrev main_v64 : Ref sig .tc := ⟨.hbm, 86, rfl⟩
abbrev main_c_17 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_18 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_19 : Ref sig .tc := ⟨.hbm, 100, rfl⟩
abbrev main_v76 : Ref sig .tc := ⟨.hbm, 101, rfl⟩
abbrev main_v77 : Ref sig .tc := ⟨.hbm, 102, rfl⟩
abbrev main_c_20 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_21 : Ref sig .tc := ⟨.hbm, 107, rfl⟩
abbrev main_v81 : Ref sig .tc := ⟨.hbm, 108, rfl⟩
abbrev main_v82 : Ref sig .tc := ⟨.hbm, 109, rfl⟩
abbrev main_c_22 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]

class Facts₀ : Prop where
  bcast_S_S16x16x256x256 : S_.BroadcastsInDim S16x16x256x256 (![] : Fin 0 → Fin S16x16x256x256.rank)
  slices_S5x16x256x256_S1x16x256x256_0_0_0_0 : S5x16x256x256.Slices ![0, 0, 0, 0] S1x16x256x256
  shapeCasts_S1x16x256x256_S16x256x256 : S1x16x256x256.ShapeCasts S16x256x256
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  slices_S5x16x256x256_S1x16x256x256_1_0_0_0 : S5x16x256x256.Slices ![1, 0, 0, 0] S1x16x256x256
  slices_S5x16x256x256_S1x16x256x256_2_0_0_0 : S5x16x256x256.Slices ![2, 0, 0, 0] S1x16x256x256
  slices_S5x16x256x256_S1x16x256x256_3_0_0_0 : S5x16x256x256.Slices ![3, 0, 0, 0] S1x16x256x256
  slices_S5x16x256x256_S1x16x256x256_4_0_0_0 : S5x16x256x256.Slices ![4, 0, 0, 0] S1x16x256x256
  transposes_S16x16x256x256_S16x256x16x256_0_2_1_3 : S16x16x256x256.Transposes [0, 2, 1, 3] S16x256x16x256
  shapeCasts_S16x256x16x256_S4096x4096 : S16x256x16x256.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S16x16x256x256_S16x2_S16x256x256_12_01_01_1_wf : ScatterDims.WF S16x16x256x256 S16x2 S16x256x256 [1, 2] [0, 1] [0, 1] 1
  dot_S8192x4096_S4096x4096_S8192x4096_1_0_0_1_n_n_wf : DotDims.WF S8192x4096 S4096x4096 S8192x4096 [1] [0] [0] [1] [] []

variable [Facts₀]

def scatter_S16x16x256x256_S16x2_S16x256x256_12_01_01_1 : ScatterDims S16x16x256x256 S16x2 S16x256x256 where
  updateWindowDims := [1, 2]
  insertedWindowDims := [0, 1]
  scatterDimsToOperandDims := [0, 1]
  indexVectorDim := 1
  wf := scatter_S16x16x256x256_S16x2_S16x256x256_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, written once over the extended reals.

  The 4096 input columns and the 4096 output columns are each cut into 16 blocks of 256, and the blocks are the
  nodes of a 4-dimensional hypercube. Output block `A` depends on five input blocks only: `A` itself and its four
  neighbours `A xor 1`, `A xor 2`, `A xor 4`, `A xor 8`. Direction `t` (0 for the node itself, `d + 1` for bit `d`) of
  input block `B` carries its own 256 x 256 weight matrix `w[t, B]`, and
      y[r, 256 A + o] = sum over the five directions t of (sum over k of x[r, 256 (A xor mask t) + k] * w[t, A xor mask t, o, k])
                        + bias[256 A + o].
  `W` is the same weights laid out as a dense 16 x 16 grid of blocks, zero off the hypercube's edges.
-/
import Idealize.ShloMosaic.PureOps.Ideal
import Idealize.ShloMosaic.Lib.ValueIdx

noncomputable section

namespace Cert.Hypercube

open Idealize.ShloMosaic Idealize.ShloMosaic.ValueIdx

/-- The bit each direction flips; direction 0 flips none. -/
def mask : Fin 5 → ℕ := ![0, 1, 2, 4, 8]

theorem mask_lt (t : Fin 5) : mask t < 2 ^ 4 := by
  fin_cases t <;> decide

/-- Node `A`'s neighbour in direction `t`. -/
def nbr (A : Fin 16) (t : Fin 5) : Fin 16 := ⟨A.val ^^^ mask t, Nat.xor_lt_two_pow (n := 4) A.isLt (mask_lt t)⟩

/-- Column `k` of column block `B`. -/
def col (B : Fin 16) (k : Fin 256) : Fin 4096 := ⟨B.val * 256 + k.val, by have := B.isLt; have := k.isLt; omega⟩

/-- The block a column lies in. -/
def blockOf (c : Fin 4096) : Fin 16 := ⟨c.val / 256, by have := c.isLt; omega⟩

/-- A column's place inside its block. -/
def within (c : Fin 4096) : Fin 256 := ⟨c.val % 256, Nat.mod_lt _ (by decide)⟩

theorem col_blockOf_within (c : Fin 4096) : col (blockOf c) (within c) = c :=
  Fin.ext (by show c.val / 256 * 256 + c.val % 256 = c.val; omega)

theorem blockOf_col (B : Fin 16) (k : Fin 256) : blockOf (col B k) = B :=
  Fin.ext (by show (B.val * 256 + k.val) / 256 = B.val; have := k.isLt; omega)

theorem within_col (B : Fin 16) (k : Fin 256) : within (col B k) = k :=
  Fin.ext (by show (B.val * 256 + k.val) % 256 = k.val; have := k.isLt; omega)

/-- Direction `t`'s contribution to row `r`, entry `o` of output block `A`: row `r` of `x` restricted to the neighbour's
    input block, against row `o` of the neighbour's weight matrix in that direction. -/
def term {R : ℕ} (x : (⟨2, ![R, 4096]⟩ : Shape).Idx → EReal) (w : (⟨4, ![5, 16, 256, 256]⟩ : Shape).Idx → EReal)
    (r : Fin R) (A : Fin 16) (o : Fin 256) (t : Fin 5) : EReal :=
  ∑ k : Fin 256, x (ix2 r (col (nbr A t) k)) * w (ix4 t (nbr A t) o k)

/-- The result at row `r`, column `c`: the five directions' contributions in order, then the bias. -/
def Gc {R : ℕ} (x : (⟨2, ![R, 4096]⟩ : Shape).Idx → EReal) (w : (⟨4, ![5, 16, 256, 256]⟩ : Shape).Idx → EReal)
    (β : Fin 4096 → EReal) (r : Fin R) (c : Fin 4096) : EReal :=
  term x w r (blockOf c) (within c) 0 + term x w r (blockOf c) (within c) 1 + term x w r (blockOf c) (within c) 2
    + term x w r (blockOf c) (within c) 3 + term x w r (blockOf c) (within c) 4 + β c

/-- The whole result array (of `R` rows) as one function of `x`, the weights and the bias. -/
def G {R : ℕ} (x : (⟨2, ![R, 4096]⟩ : Shape).Idx → EReal) (w : (⟨4, ![5, 16, 256, 256]⟩ : Shape).Idx → EReal)
    (β : Fin 4096 → EReal) : (⟨2, ![R, 4096]⟩ : Shape).Idx → EReal :=
  fun j => Gc x w β (j 0) (j 1)

/-- The dense grid of weight blocks at block row `A`, block column `B`, entry `(o, k)`: direction `t`'s matrix of
    input block `B` where `B` is `A`'s neighbour in direction `t`, zero where `A` and `B` are not joined. (The five
    conditions exclude one another: the neighbours of a node are distinct.) -/
def Wc (w : (⟨4, ![5, 16, 256, 256]⟩ : Shape).Idx → EReal) (A B : Fin 16) (o k : Fin 256) : EReal :=
  if B = nbr A 4 then w (ix4 4 B o k)
  else if B = nbr A 3 then w (ix4 3 B o k)
  else if B = nbr A 2 then w (ix4 2 B o k)
  else if B = nbr A 1 then w (ix4 1 B o k)
  else if B = nbr A 0 then w (ix4 0 B o k)
  else 0

/-- The dense weight grid as an array. -/
def W (w : (⟨4, ![5, 16, 256, 256]⟩ : Shape).Idx → EReal) : (⟨4, ![16, 16, 256, 256]⟩ : Shape).Idx → EReal :=
  fun i => Wc w (i 0) (i 1) (i 2) (i 3)

end Cert.Hypercube

end
-- ==== Proof.KOps.lean ====
/-
  The four shapes of value the kernel body is built from, each read at one index over the extended reals:
  a block product (a 512 x 256 column slice of the input against one 256 x 256 weight block, contracted along the
  second axis of both), the bias row spread over the rows, the zero start, and a load through a unit-stride rectangle.
-/
import proofs.«137747_j29446295781761_2_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.Hypercube.Kernel

open Idealize.ShloMosaic Idealize.ShloMosaic.ValueIdx Cert.KernelIdeal Cert.KernelIdeal.Gen

/-! ## The block product's operand indices -/

/-- The left operand is read on its row axis at the result's row. -/
theorem lhsIdx_row (j : S512x256.Idx) (k : dot_S512x256_S256x256_S512x256_1_1_0_0_n_n.contr.Idx) :
    (dot_S512x256_S256x256_S512x256_1_1_0_0_n_n.lhsIdx j k 0).val = (j 0).val := by
  unfold DotDims.lhsIdx
  rw [dif_neg (show ¬(0 : Fin S512x256.rank) ∈ dot_S512x256_S256x256_S512x256_1_1_0_0_n_n.lhsBatch by decide),
    dif_pos (show (0 : Fin S512x256.rank) ∈ dot_S512x256_S256x256_S512x256_1_1_0_0_n_n.lhsNonContracting by decide)]
  rfl

/-- … and on its column axis at the contraction position. -/
theorem lhsIdx_col (j : S512x256.Idx) (k : dot_S512x256_S256x256_S512x256_1_1_0_0_n_n.contr.Idx) :
    (dot_S512x256_S256x256_S512x256_1_1_0_0_n_n.lhsIdx j k 1).val = (k ⟨0, by decide⟩).val :=
  dot_S512x256_S256x256_S512x256_1_1_0_0_n_n.lhsIdx_val_of_single rfl j k

/-- The right operand is read on its row axis at the result's column. -/
theorem rhsIdx_row (j : S512x256.Idx) (k : dot_S512x256_S256x256_S512x256_1_1_0_0_n_n.contr.Idx) :
    (dot_S512x256_S256x256_S512x256_1_1_0_0_n_n.rhsIdx j k 0).val = (j 1).val := by
  unfold DotDims.rhsIdx
  rw [dif_neg (show ¬(0 : Fin S256x256.rank) ∈ dot_S512x256_S256x256_S512x256_1_1_0_0_n_n.rhsBatch by decide),
    dif_pos (show (0 : Fin S256x256.rank) ∈ dot_S512x256_S256x256_S512x256_1_1_0_0_n_n.rhsNonContracting by decide)]
  rfl

/-- … and on its column axis at the contraction position. -/
theorem rhsIdx_col (j : S512x256.Idx) (k : dot_S512x256_S256x256_S512x256_1_1_0_0_n_n.contr.Idx) :
    (dot_S512x256_S256x256_S512x256_1_1_0_0_n_n.rhsIdx j k 1).val = (k ⟨0, by decide⟩).val :=
  dot_S512x256_S256x256_S512x256_1_1_0_0_n_n.rhsIdx_val_of_single rfl j k

/-! ## The block product at an index -/

/-- The product of the column slice of `xb` starting at column `off` with the weight block `w` (given with its two
    leading unit axes), accumulated into zero, at row `p` and column `q`: the sum over `k` of
    `xb[p, off + k] * w[0, 0, q, k]`. -/
theorem mm_apply (xb : FVec Ideal S512x4096 .bf16) (w : Vec Ideal S1x1x256x256 .bf16) (off : ℕ)
    (hs : S512x4096.Slices ![0, off] S512x256) (hc : S1x1x256x256.ShapeCasts S256x256) (p : Fin 512) (q : Fin 256) :
    matmul (F := Ideal) (φ₁ := .bf16) (φ₂ := .bf16) dot_S512x256_S256x256_S512x256_1_1_0_0_n_n none
        (extractStridedSlice S512x256 ![0, off] xb hs) (shapeCast S256x256 w hc)
        (constant S512x256 .f32 0x00000000#32) (ix2 p q)
      = ∑ k : Fin 256, xb (ix2 p ⟨off + k.val, Nat.lt_of_lt_of_le (Nat.add_lt_add_left k.isLt off) (hs.2 1)⟩)
          * w (ix4 (0 : Fin 1) (0 : Fin 1) q k) := by
  refine (Ideal.matmul_constant_zero_apply dot_S512x256_S256x256_S512x256_1_1_0_0_n_n none _ _ (ix2 p q)).trans ?_
  rw [← Equiv.sum_comp (ValueIdx.contrEquiv1 dot_S512x256_S256x256_S512x256_1_1_0_0_n_n 256 rfl rfl).symm]
  refine Finset.sum_congr rfl fun k _ => ?_
  have hk := ValueIdx.contrEquiv1_symm_val dot_S512x256_S256x256_S512x256_1_1_0_0_n_n 256 rfl rfl k
  have el : extractStridedSlice S512x256 ![0, off] xb hs
      (dot_S512x256_S256x256_S512x256_1_1_0_0_n_n.lhsIdx (ix2 p q)
        ((ValueIdx.contrEquiv1 dot_S512x256_S256x256_S512x256_1_1_0_0_n_n 256 rfl rfl).symm k))
      = xb (ix2 p ⟨off + k.val, Nat.lt_of_lt_of_le (Nat.add_lt_add_left k.isLt off) (hs.2 1)⟩) :=
    extractStridedSlice_apply _ xb hs _ _ (fun a => by
      match a with
      | ⟨0, _⟩ =>
        show p.val = 0 + (dot_S512x256_S256x256_S512x256_1_1_0_0_n_n.lhsIdx (ix2 p q) _ 0).val
        rw [lhsIdx_row, Nat.zero_add]
      | ⟨1, _⟩ =>
        show off + k.val = off + (dot_S512x256_S256x256_S512x256_1_1_0_0_n_n.lhsIdx (ix2 p q) _ 1).val
        rw [lhsIdx_col, hk])
  have er : shapeCast S256x256 w hc
      (dot_S512x256_S256x256_S512x256_1_1_0_0_n_n.rhsIdx (ix2 p q)
        ((ValueIdx.contrEquiv1 dot_S512x256_S256x256_S512x256_1_1_0_0_n_n 256 rfl rfl).symm k))
      = w (ix4 (0 : Fin 1) (0 : Fin 1) q k) :=
    shapeCast_apply w hc _ _ (by
      rw [Shape.rowMajor_val_four, Shape.rowMajor_val_two, rhsIdx_row, rhsIdx_col, hk]
      show ((0 * 1 + 0) * 256 + q.val) * 256 + k.val = q.val * 256 + k.val
      omega)
  rw [el, er]

/-! ## The bias row, the zero start, the loads -/

/-- The bias block (one row of 256), flattened and unflattened and then spread over the 512 rows, at row `p` and
    column `q`: the block's entry `q`. -/
theorem bias_apply (v : Vec Ideal S1x256 .f32) (h1 : S1x256.ShapeCasts S256) (h2 : S256.ShapeCasts S1x256)
    (h3 : S1x256.Broadcasts S512x256) (p : Fin 512) (q : Fin 256) :
    broadcastTo S512x256 (shapeCast S1x256 (shapeCast S256 v h1) h2) h3 (ix2 p q) = v (ix2 (0 : Fin 1) q) :=
  (broadcastTo_1b_ab_apply _ h3 p q).trans
    ((shapeCast_a_1a_apply _ h2 (0 : Fin 1) q).trans (shapeCast_1a_a_apply v h1 q))

/-- The zero the running sum starts from. -/
theorem zero_apply (i : S512x256.Idx) :
    broadcast S512x256 (Scalar.ofBits (F := Ideal) .f32 0x00000000#32) i = (0 : EReal) :=
  Ideal.ofBits_zero_f32

/-- A load of the whole input block reads the block. -/
theorem ld_whole (x0 : Vec Ideal S512x4096 .f32)
    (inb : ∀ a, (![0, 0] : Fin 2 → ℕ) a + S512x4096.size a ≤ S512x4096.size a) :
    View.ld x0 (Rect.unit (s := S512x4096) ![0, 0] S512x4096.size inb) = x0 :=
  View.ld_unit_zero (funext fun a => by match a with | ⟨0, _⟩ => rfl | ⟨1, _⟩ => rfl) inb x0

/-- A load of the weight block at `[tn, Bn]`, read at `(0, 0, q, k)`: the weights at `(tn, Bn, q, k)`. -/
theorem ldw_apply (x1 : Vec Ideal S5x16x256x256 .bf16) (tn Bn : ℕ)
    (inb : ∀ a, (![tn, Bn, 0, 0] : Fin 4 → ℕ) a + S1x1x256x256.size a ≤ S5x16x256x256.size a)
    (t : Fin 5) (B : Fin 16) (ht : tn = t.val) (hB : Bn = B.val) (u v : Fin 1) (q k : Fin 256) :
    View.ld x1 (Rect.unit (s := S5x16x256x256) ![tn, Bn, 0, 0] S1x1x256x256.size inb) (ix4 u v q k)
      = x1 (ix4 t B q k) := by
  show x1 _ = x1 _
  refine congrArg x1 (funext fun a => Fin.ext ?_)
  have hu : u.val = 0 := by omega
  have hv : v.val = 0 := by omega
  match a with
  | ⟨0, _⟩ => show tn + 1 * u.val = t.val; omega
  | ⟨1, _⟩ => show Bn + 1 * v.val = B.val; omega
  | ⟨2, _⟩ => show 0 + 1 * q.val = q.val; omega
  | ⟨3, _⟩ => show 0 + 1 * k.val = k.val; omega

/-- A load of the bias block at column `off`, read at `(0, q)`: the bias at column `off + q`. -/
theorem ldb_apply (x2 : Vec Ideal S1x4096 .f32) (off : ℕ)
    (inb : ∀ a, (![0, off] : Fin 2 → ℕ) a + S1x256.size a ≤ S1x4096.size a)
    (c : Fin 4096) (u : Fin 1) (q : Fin 256) (hc : c.val = off + q.val) :
    View.ld x2 (Rect.unit (s := S1x4096) ![0, off] S1x256.size inb) (ix2 u q) = x2 (ix2 (0 : Fin 1) c) := by
  show x2 _ = x2 _
  refine congrArg x2 (funext fun a => Fin.ext ?_)
  have hu : u.val = 0 := by omega
  match a with
  | ⟨0, _⟩ => show 0 + 1 * u.val = 0; omega
  | ⟨1, _⟩ => show off + 1 * q.val = c.val; omega

end Cert.Hypercube.Kernel

end
-- ==== Proof.KTerm.lean ====
/-
  The body's values set against the specification: a block product against direction t's weights of node A's
  neighbour is that direction's contribution `term`; the bias row under output block A is the bias at the block's columns;
  and the running sum from zero of the five contributions plus the bias is the specified value `Gc` at a column of block A.
-/
import proofs.«137747_j29446295781761_2_alg».proof.Proof.Spec
import proofs.«137747_j29446295781761_2_alg».proof.Proof.KOps
import proofs.«137747_j29446295781761_2_alg».proof.Proof.Gen.KernelIdeal.Skeleton

noncomputable section

namespace Cert.Hypercube.Kernel

open Idealize.ShloMosaic Idealize.ShloMosaic.ValueIdx Cert.KernelIdeal Cert.KernelIdeal.Gen Cert.Hypercube

/-- The product of the input's column block `nbr A t` (columns from `off`) with the loaded weight block `[t, nbr A t]`,
    at row `p` and column `q` of output block `A`, is direction `t`'s contribution. The input block enters rounded to
    bf16, which over the extended reals changes nothing. -/
theorem mm_term (x0 : Vec Ideal S512x4096 .f32) (x1 : Vec Ideal S5x16x256x256 .bf16) (A : Fin 16) (t : Fin 5)
    (off tn Bn : ℕ) (inb0 : ∀ a, (![0, 0] : Fin 2 → ℕ) a + S512x4096.size a ≤ S512x4096.size a)
    (hs : S512x4096.Slices ![0, off] S512x256) (hc : S1x1x256x256.ShapeCasts S256x256)
    (inb : ∀ a, (![tn, Bn, 0, 0] : Fin 4 → ℕ) a + S1x1x256x256.size a ≤ S5x16x256x256.size a)
    (hoff : off = (nbr A t).val * 256) (htn : tn = t.val) (hBn : Bn = (nbr A t).val) (p : Fin 512) (q : Fin 256) :
    matmul (F := Ideal) (φ₁ := .bf16) (φ₂ := .bf16) dot_S512x256_S256x256_S512x256_1_1_0_0_n_n none
        (extractStridedSlice S512x256 ![0, off]
          (k0_pay2 (F := Ideal) (View.ld x0 (Rect.unit (s := S512x4096) ![0, 0] S512x4096.size inb0))) hs)
        (shapeCast S256x256
          (View.ld x1 (Rect.unit (s := S5x16x256x256) ![tn, Bn, 0, 0] S1x1x256x256.size inb) : Vec Ideal S1x1x256x256 .bf16) hc)
        (constant S512x256 .f32 0x00000000#32) (ix2 p q)
      = term (R := 512) x0 x1 p A q t := by
  refine (mm_apply _ _ off hs hc p q).trans ?_
  unfold term
  refine Finset.sum_congr rfl fun k _ => ?_
  refine congrArg₂ (fun a b : EReal => a * b) ?_ ?_
  · rw [ld_whole]
    show x0 (ix2 p _) = x0 (ix2 p _)
    refine congrArg (fun c => x0 (ix2 p c)) (Fin.ext ?_)
    show off + k.val = (nbr A t).val * 256 + k.val
    omega
  · exact ldw_apply x1 tn Bn inb t (nbr A t) htn hBn 0 0 q k

/-- The loaded bias block under output block `A`, spread over the rows, at column `q`: the bias at column `q` of block `A`. -/
theorem bias_col (x2 : Vec Ideal S1x4096 .f32) (A : Fin 16) (off : ℕ)
    (inb : ∀ a, (![0, off] : Fin 2 → ℕ) a + S1x256.size a ≤ S1x4096.size a)
    (h1 : S1x256.ShapeCasts S256) (h2 : S256.ShapeCasts S1x256) (h3 : S1x256.Broadcasts S512x256)
    (hoff : off = A.val * 256) (p : Fin 512) (q : Fin 256) :
    broadcastTo S512x256 (shapeCast S1x256 (shapeCast S256
        (View.ld x2 (Rect.unit (s := S1x4096) ![0, off] S1x256.size inb) : Vec Ideal S1x256 .f32) h1) h2) h3 (ix2 p q)
      = x2 (ix2 (0 : Fin 1) (col A q)) :=
  (bias_apply _ h1 h2 h3 p q).trans
    (ldb_apply x2 off inb (col A q) 0 q (by show A.val * 256 + q.val = off + q.val; omega))

/-- The running sum as the body forms it — zero, then the five contributions in order, then the bias — is the
    specified value at column `o` of block `A`. -/
theorem Gc_of_parts (x : (⟨2, ![512, 4096]⟩ : Shape).Idx → EReal) (w : (⟨4, ![5, 16, 256, 256]⟩ : Shape).Idx → EReal)
    (β : Fin 4096 → EReal) (r : Fin 512) (A : Fin 16) (o : Fin 256) (z m0 m1 m2 m3 m4 b : EReal)
    (hz : z = 0) (h0 : m0 = term x w r A o 0) (h1 : m1 = term x w r A o 1) (h2 : m2 = term x w r A o 2)
    (h3 : m3 = term x w r A o 3) (h4 : m4 = term x w r A o 4) (hb : b = β (col A o)) :
    z + m0 + m1 + m2 + m3 + m4 + b = Gc x w β r (col A o) := by
  subst hz h0 h1 h2 h3 h4 hb
  unfold Gc
  rw [blockOf_col, within_col, zero_add]

/-- The specified array at the place a store through the rectangle of output block `A` (columns from `off`) puts its
    entry `(p, q)`: row `p`, column `q` of block `A`. -/
theorem G_at (x : (⟨2, ![512, 4096]⟩ : Shape).Idx → EReal) (w : (⟨4, ![5, 16, 256, 256]⟩ : Shape).Idx → EReal)
    (β : Fin 4096 → EReal) (A : Fin 16) (off : ℕ)
    (inb : ∀ a, (![0, off] : Fin 2 → ℕ) a + S512x256.size a ≤ S512x4096.size a) (hoff : off = A.val * 256)
    (p : Fin 512) (q : Fin 256) :
    G (R := 512) x w β ((Rect.unit (s := S512x4096) ![0, off] S512x256.size inb).emb (ix2 p q)) = Gc x w β p (col A q) := by
  unfold G
  refine congrArg₂ (Gc x w β) (Fin.ext ?_) (Fin.ext ?_)
  · show 0 + 1 * p.val = p.val
    omega
  · show off + 1 * q.val = A.val * 256 + q.val
    omega

/-- Every index of a 512 x 256 block is a row and a column. -/
theorem exists_ix2 (x : S512x256.Idx) : ∃ (p : Fin 512) (q : Fin 256), x = ix2 p q := ⟨x 0, x 1, eq_ix2 x⟩

/-- After a piece's payload is unfolded and the index pushed through its sums, the goal is the running sum of
    `Gc_of_parts` at a literal block `A`: the zero start, direction 0 … 4's block products, the bias row. The offsets
    and block numbers are read off the goal; that they are `A`'s neighbours' is decided. -/
macro "piece_close " A:term : tactic => `(tactic|
  exact Gc_of_parts _ _ _ _ $A _ _ _ _ _ _ _ _ (zero_apply _)
    (mm_term _ _ $A (0 : Fin 5) _ _ _ _ _ _ _ (by decide) (by decide) (by decide) _ _)
    (mm_term _ _ $A (1 : Fin 5) _ _ _ _ _ _ _ (by decide) (by decide) (by decide) _ _)
    (mm_term _ _ $A (2 : Fin 5) _ _ _ _ _ _ _ (by decide) (by decide) (by decide) _ _)
    (mm_term _ _ $A (3 : Fin 5) _ _ _ _ _ _ _ (by decide) (by decide) (by decide) _ _)
    (mm_term _ _ $A (4 : Fin 5) _ _ _ _ _ _ _ (by decide) (by decide) (by decide) _ _)
    (bias_col _ $A _ _ _ _ _ (by decide) _ _))

end Cert.Hypercube.Kernel

end
-- ==== Proof.KPa.lean ====
/-
  Output blocks 0 to 7 of the kernel body: what each store's payload holds at row p, column q is the specified value
  Gc at column q of that block. Each payload, unfolded, is the running sum zero + five block products + bias row; the
  index goes through the sums, and the parts are matched with the specification's (the tactic piece_close).
-/
import proofs.«137747_j29446295781761_2_alg».proof.Proof.KTerm
import proofs.«137747_j29446295781761_2_alg».proof.Proof.Gen.KernelIdeal.Frame

noncomputable section

namespace Cert.Hypercube.Kernel

open Idealize.ShloMosaic Idealize.ShloMosaic.ValueIdx Cert.KernelIdeal Cert.KernelIdeal.Gen Cert.Hypercube

/-- Output block 0 (its neighbours are blocks 0, 1, 2, 4, 8). -/
theorem piece0 (x0 : Vec Ideal S512x4096 .f32) (x1 : Vec Ideal S5x16x256x256 .bf16) (x2 : Vec Ideal S1x4096 .f32)
    (p : Fin 512) (q : Fin 256) :
    (k0_pay4 (F := Ideal) (k0_pay3 (View.ld x0 r0_0) (View.ld x1 r0_1) (View.ld x1 r0_2) (View.ld x1 r0_3) (View.ld x1 r0_4) (View.ld x1 r0_5)) (View.ld x2 r0_6) : FVec Ideal S512x256 .f32) (ix2 p q)
      = Gc (R := 512) x0 x1 (fun c => x2 (ix2 (0 : Fin 1) c)) p (col 0 q) := by
  simp only [k0_pay4, k0_pay3, addf_apply]
  piece_close (0 : Fin 16)

/-- Output block 1 (neighbours 1, 0, 3, 5, 9). -/
theorem piece1 (x0 : Vec Ideal S512x4096 .f32) (x1 : Vec Ideal S5x16x256x256 .bf16) (x2 : Vec Ideal S1x4096 .f32)
    (p : Fin 512) (q : Fin 256) :
    (k0_pay6 (F := Ideal) (k0_pay5 (k0_pay2 (View.ld x0 r0_0)) (View.ld x1 r0_8) (View.ld x1 r0_9) (View.ld x1 r0_10) (View.ld x1 r0_11) (View.ld x1 r0_12)) (View.ld x2 r0_13) : FVec Ideal S512x256 .f32) (ix2 p q)
      = Gc (R := 512) x0 x1 (fun c => x2 (ix2 (0 : Fin 1) c)) p (col 1 q) := by
  simp only [k0_pay6, k0_pay5, addf_apply]
  piece_close (1 : Fin 16)

/-- Output block 2 (neighbours 2, 3, 0, 6, 10). -/
theorem piece2 (x0 : Vec Ideal S512x4096 .f32) (x1 : Vec Ideal S5x16x256x256 .bf16) (x2 : Vec Ideal S1x4096 .f32)
    (p : Fin 512) (q : Fin 256) :
    (k0_pay10 (F := Ideal) (k0_pay7 (k0_pay2 (View.ld x0 r0_0)) (View.ld x1 r0_15) (View.ld x1 r0_16) (View.ld x1 r0_17) (View.ld x1 r0_18)) (k0_pay8 (k0_pay2 (View.ld x0 r0_0))) (k0_pay9 (View.ld x1 r0_19)) (View.ld x2 r0_20) : FVec Ideal S512x256 .f32) (ix2 p q)
      = Gc (R := 512) x0 x1 (fun c => x2 (ix2 (0 : Fin 1) c)) p (col 2 q) := by
  simp only [k0_pay10, k0_pay7, k0_pay8, k0_pay9, addf_apply]
  piece_close (2 : Fin 16)

/-- Output block 3 (neighbours 3, 2, 1, 7, 11). -/
theorem piece3 (x0 : Vec Ideal S512x4096 .f32) (x1 : Vec Ideal S5x16x256x256 .bf16) (x2 : Vec Ideal S1x4096 .f32)
    (p : Fin 512) (q : Fin 256) :
    (k0_pay13 (F := Ideal) (k0_pay11 (k0_pay2 (View.ld x0 r0_0)) (View.ld x1 r0_22) (View.ld x1 r0_23) (View.ld x1 r0_24) (View.ld x1 r0_25)) (k0_pay12 (k0_pay2 (View.ld x0 r0_0))) (View.ld x1 r0_26) (View.ld x2 r0_27) : FVec Ideal S512x256 .f32) (ix2 p q)
      = Gc (R := 512) x0 x1 (fun c => x2 (ix2 (0 : Fin 1) c)) p (col 3 q) := by
  simp only [k0_pay13, k0_pay11, k0_pay12, addf_apply]
  piece_close (3 : Fin 16)

/-- Output block 4 (neighbours 4, 5, 6, 0, 12). -/
theorem piece4 (x0 : Vec Ideal S512x4096 .f32) (x1 : Vec Ideal S5x16x256x256 .bf16) (x2 : Vec Ideal S1x4096 .f32)
    (p : Fin 512) (q : Fin 256) :
    (k0_pay16 (F := Ideal) (k0_pay14 (k0_pay2 (View.ld x0 r0_0)) (View.ld x1 r0_29) (View.ld x1 r0_30) (View.ld x1 r0_31) (View.ld x1 r0_32)) (k0_pay15 (k0_pay2 (View.ld x0 r0_0))) (View.ld x1 r0_33) (View.ld x2 r0_34) : FVec Ideal S512x256 .f32) (ix2 p q)
      = Gc (R := 512) x0 x1 (fun c => x2 (ix2 (0 : Fin 1) c)) p (col 4 q) := by
  simp only [k0_pay16, k0_pay14, k0_pay15, addf_apply]
  piece_close (4 : Fin 16)

/-- Output block 5 (neighbours 5, 4, 7, 1, 13). -/
theorem piece5 (x0 : Vec Ideal S512x4096 .f32) (x1 : Vec Ideal S5x16x256x256 .bf16) (x2 : Vec Ideal S1x4096 .f32)
    (p : Fin 512) (q : Fin 256) :
    (k0_pay20 (F := Ideal) (k0_pay2 (View.ld x0 r0_0)) (k0_pay17 (k0_pay2 (View.ld x0 r0_0)) (View.ld x1 r0_36) (View.ld x1 r0_37) (View.ld x1 r0_38)) (k0_pay18 (k0_pay2 (View.ld x0 r0_0))) (k0_pay19 (View.ld x1 r0_39)) (constant (F := Ideal) S512x256 .f32 0x00000000#32) (View.ld x1 r0_40) (View.ld x2 r0_41) : FVec Ideal S512x256 .f32) (ix2 p q)
      = Gc (R := 512) x0 x1 (fun c => x2 (ix2 (0 : Fin 1) c)) p (col 5 q) := by
  simp only [k0_pay20, k0_pay17, k0_pay18, k0_pay19, addf_apply]
  piece_close (5 : Fin 16)

/-- Output block 6 (neighbours 6, 7, 4, 2, 14). -/
theorem piece6 (x0 : Vec Ideal S512x4096 .f32) (x1 : Vec Ideal S5x16x256x256 .bf16) (x2 : Vec Ideal S1x4096 .f32)
    (p : Fin 512) (q : Fin 256) :
    (k0_pay23 (F := Ideal) (k0_pay2 (View.ld x0 r0_0)) (k0_pay21 (k0_pay2 (View.ld x0 r0_0)) (View.ld x1 r0_43) (View.ld x1 r0_44) (View.ld x1 r0_45)) (k0_pay22 (k0_pay2 (View.ld x0 r0_0))) (View.ld x1 r0_46) (View.ld x1 r0_47) (View.ld x2 r0_48) : FVec Ideal S512x256 .f32) (ix2 p q)
      = Gc (R := 512) x0 x1 (fun c => x2 (ix2 (0 : Fin 1) c)) p (col 6 q) := by
  simp only [k0_pay23, k0_pay21, k0_pay22, addf_apply]
  piece_close (6 : Fin 16)

/-- Output block 7 (neighbours 7, 6, 5, 3, 15). -/
theorem piece7 (x0 : Vec Ideal S512x4096 .f32) (x1 : Vec Ideal S5x16x256x256 .bf16) (x2 : Vec Ideal S1x4096 .f32)
    (p : Fin 512) (q : Fin 256) :
    (k0_pay26 (F := Ideal) (k0_pay2 (View.ld x0 r0_0)) (k0_pay24 (k0_pay2 (View.ld x0 r0_0)) (View.ld x1 r0_50) (View.ld x1 r0_51) (View.ld x1 r0_52)) (k0_pay25 (k0_pay2 (View.ld x0 r0_0))) (View.ld x1 r0_53) (View.ld x1 r0_54) (View.ld x2 r0_55) : FVec Ideal S512x256 .f32) (ix2 p q)
      = Gc (R := 512) x0 x1 (fun c => x2 (ix2 (0 : Fin 1) c)) p (col 7 q) := by
  simp only [k0_pay26, k0_pay24, k0_pay25, addf_apply]
  piece_close (7 : Fin 16)

end Cert.Hypercube.Kernel

end
-- ==== Proof.KPb.lean ====
/-
  Output blocks 8 to 15 of the kernel body: what each store's payload holds at row p, column q is the specified value
  Gc at column q of that block. Each payload, unfolded, is the running sum zero + five block products + bias row; the
  index goes through the sums, and the parts are matched with the specification's (the tactic piece_close).
-/
import proofs.«137747_j29446295781761_2_alg».proof.Proof.KTerm
import proofs.«137747_j29446295781761_2_alg».proof.Proof.Gen.KernelIdeal.Frame

noncomputable section

namespace Cert.Hypercube.Kernel

open Idealize.ShloMosaic Idealize.ShloMosaic.ValueIdx Cert.KernelIdeal Cert.KernelIdeal.Gen Cert.Hypercube

/-- Output block 8 (its neighbours are blocks 8, 9, 10, 12, 0). -/
theorem piece8 (x0 : Vec Ideal S512x4096 .f32) (x1 : Vec Ideal S5x16x256x256 .bf16) (x2 : Vec Ideal S1x4096 .f32)
    (p : Fin 512) (q : Fin 256) :
    (k0_pay29 (F := Ideal) (k0_pay2 (View.ld x0 r0_0)) (k0_pay27 (k0_pay2 (View.ld x0 r0_0)) (View.ld x1 r0_57) (View.ld x1 r0_58)) (k0_pay28 (k0_pay2 (View.ld x0 r0_0)) (View.ld x1 r0_59)) (View.ld x1 r0_60) (View.ld x1 r0_61) (View.ld x2 r0_62) : FVec Ideal S512x256 .f32) (ix2 p q)
      = Gc (R := 512) x0 x1 (fun c => x2 (ix2 (0 : Fin 1) c)) p (col 8 q) := by
  simp only [k0_pay29, k0_pay27, k0_pay28, addf_apply]
  piece_close (8 : Fin 16)

/-- Output block 9 (neighbours 9, 8, 11, 13, 1). -/
theorem piece9 (x0 : Vec Ideal S512x4096 .f32) (x1 : Vec Ideal S5x16x256x256 .bf16) (x2 : Vec Ideal S1x4096 .f32)
    (p : Fin 512) (q : Fin 256) :
    (k0_pay32 (F := Ideal) (k0_pay2 (View.ld x0 r0_0)) (k0_pay30 (k0_pay2 (View.ld x0 r0_0)) (View.ld x1 r0_64) (View.ld x1 r0_65)) (k0_pay31 (k0_pay2 (View.ld x0 r0_0))) (View.ld x1 r0_66) (View.ld x1 r0_67) (View.ld x1 r0_68) (View.ld x2 r0_69) : FVec Ideal S512x256 .f32) (ix2 p q)
      = Gc (R := 512) x0 x1 (fun c => x2 (ix2 (0 : Fin 1) c)) p (col 9 q) := by
  simp only [k0_pay32, k0_pay30, k0_pay31, addf_apply]
  piece_close (9 : Fin 16)

/-- Output block 10 (neighbours 10, 11, 8, 14, 2). -/
theorem piece10 (x0 : Vec Ideal S512x4096 .f32) (x1 : Vec Ideal S5x16x256x256 .bf16) (x2 : Vec Ideal S1x4096 .f32)
    (p : Fin 512) (q : Fin 256) :
    (k0_pay35 (F := Ideal) (k0_pay2 (View.ld x0 r0_0)) (k0_pay33 (k0_pay2 (View.ld x0 r0_0)) (View.ld x1 r0_71) (View.ld x1 r0_72)) (k0_pay34 (k0_pay2 (View.ld x0 r0_0))) (View.ld x1 r0_73) (View.ld x1 r0_74) (View.ld x1 r0_75) (View.ld x2 r0_76) : FVec Ideal S512x256 .f32) (ix2 p q)
      = Gc (R := 512) x0 x1 (fun c => x2 (ix2 (0 : Fin 1) c)) p (col 10 q) := by
  simp only [k0_pay35, k0_pay33, k0_pay34, addf_apply]
  piece_close (10 : Fin 16)

/-- Output block 11 (neighbours 11, 10, 9, 15, 3). -/
theorem piece11 (x0 : Vec Ideal S512x4096 .f32) (x1 : Vec Ideal S5x16x256x256 .bf16) (x2 : Vec Ideal S1x4096 .f32)
    (p : Fin 512) (q : Fin 256) :
    (k0_pay37 (F := Ideal) (k0_pay2 (View.ld x0 r0_0)) (k0_pay36 (k0_pay2 (View.ld x0 r0_0)) (View.ld x1 r0_78) (View.ld x1 r0_79)) (View.ld x1 r0_80) (View.ld x1 r0_81) (View.ld x1 r0_82) (View.ld x2 r0_83) : FVec Ideal S512x256 .f32) (ix2 p q)
      = Gc (R := 512) x0 x1 (fun c => x2 (ix2 (0 : Fin 1) c)) p (col 11 q) := by
  simp only [k0_pay37, k0_pay36, addf_apply]
  piece_close (11 : Fin 16)

/-- Output block 12 (neighbours 12, 13, 14, 8, 4). -/
theorem piece12 (x0 : Vec Ideal S512x4096 .f32) (x1 : Vec Ideal S5x16x256x256 .bf16) (x2 : Vec Ideal S1x4096 .f32)
    (p : Fin 512) (q : Fin 256) :
    (k0_pay41 (F := Ideal) (k0_pay2 (View.ld x0 r0_0)) (k0_pay38 (k0_pay2 (View.ld x0 r0_0)) (View.ld x1 r0_85)) (k0_pay39 (k0_pay2 (View.ld x0 r0_0))) (k0_pay40 (View.ld x1 r0_86)) (View.ld x1 r0_87) (View.ld x1 r0_88) (View.ld x1 r0_89) (View.ld x2 r0_90) : FVec Ideal S512x256 .f32) (ix2 p q)
      = Gc (R := 512) x0 x1 (fun c => x2 (ix2 (0 : Fin 1) c)) p (col 12 q) := by
  simp only [k0_pay41, k0_pay38, k0_pay39, k0_pay40, addf_apply]
  piece_close (12 : Fin 16)

/-- Output block 13 (neighbours 13, 12, 15, 9, 5). -/
theorem piece13 (x0 : Vec Ideal S512x4096 .f32) (x1 : Vec Ideal S5x16x256x256 .bf16) (x2 : Vec Ideal S1x4096 .f32)
    (p : Fin 512) (q : Fin 256) :
    (k0_pay44 (F := Ideal) (k0_pay2 (View.ld x0 r0_0)) (k0_pay42 (k0_pay2 (View.ld x0 r0_0)) (View.ld x1 r0_92)) (k0_pay43 (k0_pay2 (View.ld x0 r0_0))) (View.ld x1 r0_93) (View.ld x1 r0_94) (View.ld x1 r0_95) (View.ld x1 r0_96) (View.ld x2 r0_97) : FVec Ideal S512x256 .f32) (ix2 p q)
      = Gc (R := 512) x0 x1 (fun c => x2 (ix2 (0 : Fin 1) c)) p (col 13 q) := by
  simp only [k0_pay44, k0_pay42, k0_pay43, addf_apply]
  piece_close (13 : Fin 16)

/-- Output block 14 (neighbours 14, 15, 12, 10, 6). -/
theorem piece14 (x0 : Vec Ideal S512x4096 .f32) (x1 : Vec Ideal S5x16x256x256 .bf16) (x2 : Vec Ideal S1x4096 .f32)
    (p : Fin 512) (q : Fin 256) :
    (k0_pay47 (F := Ideal) (k0_pay2 (View.ld x0 r0_0)) (k0_pay45 (k0_pay2 (View.ld x0 r0_0)) (View.ld x1 r0_99)) (k0_pay46 (k0_pay2 (View.ld x0 r0_0))) (View.ld x1 r0_100) (View.ld x1 r0_101) (View.ld x1 r0_102) (View.ld x1 r0_103) (View.ld x2 r0_104) : FVec Ideal S512x256 .f32) (ix2 p q)
      = Gc (R := 512) x0 x1 (fun c => x2 (ix2 (0 : Fin 1) c)) p (col 14 q) := by
  simp only [k0_pay47, k0_pay45, k0_pay46, addf_apply]
  piece_close (14 : Fin 16)

/-- Output block 15 (neighbours 15, 14, 13, 11, 7). -/
theorem piece15 (x0 : Vec Ideal S512x4096 .f32) (x1 : Vec Ideal S5x16x256x256 .bf16) (x2 : Vec Ideal S1x4096 .f32)
    (p : Fin 512) (q : Fin 256) :
    (k0_pay1 (F := Ideal) (k0_pay51 (k0_pay2 (View.ld x0 r0_0)) (k0_pay48 (F := Ideal)) (k0_pay49 (k0_pay2 (View.ld x0 r0_0))) (k0_pay50 (View.ld x1 r0_106)) (constant (F := Ideal) S512x256 .f32 0x00000000#32) (View.ld x1 r0_107) (View.ld x1 r0_108) (View.ld x1 r0_109) (View.ld x1 r0_110)) (View.ld x2 r0_111) : FVec Ideal S512x256 .f32) (ix2 p q)
      = Gc (R := 512) x0 x1 (fun c => x2 (ix2 (0 : Fin 1) c)) p (col 15 q) := by
  simp only [k0_pay1, k0_pay51, k0_pay48, k0_pay49, k0_pay50, addf_apply]
  piece_close (15 : Fin 16)

end Cert.Hypercube.Kernel

end
-- ==== Proof.KBody.lean ====
/-
  What the kernel body leaves in its output buffer, as one function of its three input blocks: the specified array G.
  The buffer is the canon of the body's sixteen stores; store A goes through the rectangle of columns 256 A … 256 A + 255,
  and its payload at (p, q) is G at row p, column q of block A (the piece lemmas); the sixteen rectangles cover the buffer.
-/
import proofs.«137747_j29446295781761_2_alg».proof.Proof.KPa
import proofs.«137747_j29446295781761_2_alg».proof.Proof.KPb

noncomputable section

namespace Cert.Hypercube.Kernel

open Idealize.ShloMosaic Idealize.ShloMosaic.ValueIdx Cert.KernelIdeal Cert.KernelIdeal.Gen Cert.Hypercube

theorem out_eq (x0 : Vec Ideal Cert.KernelIdeal.S512x4096 .f32) (x1 : Vec Ideal Cert.KernelIdeal.S5x16x256x256 .bf16)
    (x2 : Vec Ideal Cert.KernelIdeal.S1x4096 .f32) :
    Cert.KernelIdeal.Gen.out0_3 (F := Ideal) x0 x1 x2
      = Cert.Hypercube.G (R := 512) x0 x1 (fun c => x2 (Idealize.ShloMosaic.ValueIdx.ix2 (0 : Fin 1) c)) := by
  funext y
  unfold out0_3
  refine View.canon_apply_of_pieces (G (R := 512) x0 x1 (fun c => x2 (ix2 (0 : Fin 1) c))) _ ?_ y
    (cover0_3 (F := Ideal) _ _ _ _ _ _ _ _ _ _ _ _ _ _ _ _ y)
  intro pc hpc
  rcases List.mem_cons.mp hpc with rfl | hpc
  · intro x
    obtain ⟨p, q, rfl⟩ := exists_ix2 x
    refine (piece15 x0 x1 x2 p q).trans ?_
    show _ = G (R := 512) _ _ _ (r0_112.emb (ix2 p q))
    exact (G_at _ _ _ (15 : Fin 16) _ _ (by decide) p q).symm
  rcases List.mem_cons.mp hpc with rfl | hpc
  · intro x
    obtain ⟨p, q, rfl⟩ := exists_ix2 x
    refine (piece14 x0 x1 x2 p q).trans ?_
    show _ = G (R := 512) _ _ _ (r0_105.emb (ix2 p q))
    exact (G_at _ _ _ (14 : Fin 16) _ _ (by decide) p q).symm
  rcases List.mem_cons.mp hpc with rfl | hpc
  · intro x
    obtain ⟨p, q, rfl⟩ := exists_ix2 x
    refine (piece13 x0 x1 x2 p q).trans ?_
    show _ = G (R := 512) _ _ _ (r0_98.emb (ix2 p q))
    exact (G_at _ _ _ (13 : Fin 16) _ _ (by decide) p q).symm
  rcases List.mem_cons.mp hpc with rfl | hpc
  · intro x
    obtain ⟨p, q, rfl⟩ := exists_ix2 x
    refine (piece12 x0 x1 x2 p q).trans ?_
    show _ = G (R := 512) _ _ _ (r0_91.emb (ix2 p q))
    exact (G_at _ _ _ (12 : Fin 16) _ _ (by decide) p q).symm
  rcases List.mem_cons.mp hpc with rfl | hpc
  · intro x
    obtain ⟨p, q, rfl⟩ := exists_ix2 x
    refine (piece11 x0 x1 x2 p q).trans ?_
    show _ = G (R := 512) _ _ _ (r0_84.emb (ix2 p q))
    exact (G_at _ _ _ (11 : Fin 16) _ _ (by decide) p q).symm
  rcases List.mem_cons.mp hpc with rfl | hpc
  · intro x
    obtain ⟨p, q, rfl⟩ := exists_ix2 x
    refine (piece10 x0 x1 x2 p q).trans ?_
    show _ = G (R := 512) _ _ _ (r0_77.emb (ix2 p q))
    exact (G_at _ _ _ (10 : Fin 16) _ _ (by decide) p q).symm
  rcases List.mem_cons.mp hpc with rfl | hpc
  · intro x
    obtain ⟨p, q, rfl⟩ := exists_ix2 x
    refine (piece9 x0 x1 x2 p q).trans ?_
    show _ = G (R := 512) _ _ _ (r0_70.emb (ix2 p q))
    exact (G_at _ _ _ (9 : Fin 16) _ _ (by decide) p q).symm
  rcases List.mem_cons.mp hpc with rfl | hpc
  · intro x
    obtain ⟨p, q, rfl⟩ := exists_ix2 x
    refine (piece8 x0 x1 x2 p q).trans ?_
    show _ = G (R := 512) _ _ _ (r0_63.emb (ix2 p q))
    exact (G_at _ _ _ (8 : Fin 16) _ _ (by decide) p q).symm
  rcases List.mem_cons.mp hpc with rfl | hpc
  · intro x
    obtain ⟨p, q, rfl⟩ := exists_ix2 x
    refine (piece7 x0 x1 x2 p q).trans ?_
    show _ = G (R := 512) _ _ _ (r0_56.emb (ix2 p q))
    exact (G_at _ _ _ (7 : Fin 16) _ _ (by decide) p q).symm
  rcases List.mem_cons.mp hpc with rfl | hpc
  · intro x
    obtain ⟨p, q, rfl⟩ := exists_ix2 x
    refine (piece6 x0 x1 x2 p q).trans ?_
    show _ = G (R := 512) _ _ _ (r0_49.emb (ix2 p q))
    exact (G_at _ _ _ (6 : Fin 16) _ _ (by decide) p q).symm
  rcases List.mem_cons.mp hpc with rfl | hpc
  · intro x
    obtain ⟨p, q, rfl⟩ := exists_ix2 x
    refine (piece5 x0 x1 x2 p q).trans ?_
    show _ = G (R := 512) _ _ _ (r0_42.emb (ix2 p q))
    exact (G_at _ _ _ (5 : Fin 16) _ _ (by decide) p q).symm
  rcases List.mem_cons.mp hpc with rfl | hpc
  · intro x
    obtain ⟨p, q, rfl⟩ := exists_ix2 x
    refine (piece4 x0 x1 x2 p q).trans ?_
    show _ = G (R := 512) _ _ _ (r0_35.emb (ix2 p q))
    exact (G_at _ _ _ (4 : Fin 16) _ _ (by decide) p q).symm
  rcases List.mem_cons.mp hpc with rfl | hpc
  · intro x
    obtain ⟨p, q, rfl⟩ := exists_ix2 x
    refine (piece3 x0 x1 x2 p q).trans ?_
    show _ = G (R := 512) _ _ _ (r0_28.emb (ix2 p q))
    exact (G_at _ _ _ (3 : Fin 16) _ _ (by decide) p q).symm
  rcases List.mem_cons.mp hpc with rfl | hpc
  · intro x
    obtain ⟨p, q, rfl⟩ := exists_ix2 x
    refine (piece2 x0 x1 x2 p q).trans ?_
    show _ = G (R := 512) _ _ _ (r0_21.emb (ix2 p q))
    exact (G_at _ _ _ (2 : Fin 16) _ _ (by decide) p q).symm
  rcases List.mem_cons.mp hpc with rfl | hpc
  · intro x
    obtain ⟨p, q, rfl⟩ := exists_ix2 x
    refine (piece1 x0 x1 x2 p q).trans ?_
    show _ = G (R := 512) _ _ _ (r0_14.emb (ix2 p q))
    exact (G_at _ _ _ (1 : Fin 16) _ _ (by decide) p q).symm
  rcases List.mem_cons.mp hpc with rfl | hpc
  · intro x
    obtain ⟨p, q, rfl⟩ := exists_ix2 x
    refine (piece0 x0 x1 x2 p q).trans ?_
    show _ = G (R := 512) _ _ _ (r0_7.emb (ix2 p q))
    exact (G_at _ _ _ (0 : Fin 16) _ _ (by decide) p q).symm
  nomatch hpc

end Cert.Hypercube.Kernel

end
-- ==== Proof.KValue.lean ====
/-
  From the body's blocks to the kernel's whole result array.

  The grid has 16 points; point `t` stages rows [512 t, 512 t + 512) of `x` (all 4096 columns), the whole weight
  array and the whole bias row, and writes back rows [512 t, 512 t + 512) of the result. What the body leaves for a
  block of rows is the hypercube function `G` of that block of `x` (`hout`, proved beside this module), and `G`
  treats rows independently: row `p` of the block's value is row `512 t + p` of `G` of the whole `x`. The sixteen
  row blocks tile the array, so after the run the result array is `G` of the argument arrays.
  The two arrays the host prepares before the region are read here too: the weights are `hweight` with its float
  format changed (the identity on the extended reals), and the bias row is `hbias` with a unit axis in front.
-/
import proofs.«137747_j29446295781761_2_alg».proof.Proof.Gen.KernelIdeal.Value
import proofs.«137747_j29446295781761_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.Hypercube.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Rows are independent -/

/-- `Gc` at row `p` of one array is `Gc` at row `r` of another whose row `r` is that row `p`. -/
theorem Gc_rows {R R' : ℕ} (xb : (⟨2, ![R, 4096]⟩ : Shape).Idx → EReal) (x : (⟨2, ![R', 4096]⟩ : Shape).Idx → EReal)
    (w w' : (⟨4, ![5, 16, 256, 256]⟩ : Shape).Idx → EReal) (β β' : Fin 4096 → EReal) (p : Fin R) (r : Fin R')
    (hx : ∀ q : Fin 4096, xb (ix2 p q) = x (ix2 r q)) (hw : w = w') (hβ : β = β') (c : Fin 4096) :
    Gc xb w β p c = Gc x w' β' r c := by
  subst hw hβ
  unfold Gc term
  simp only [hx]

/-! ## What the host prepared before the region -/

/-- The weight array the region finds is `hweight`: a change of float format is the identity here. -/
theorem V_weights (c : Dev nD) :
    (V m c main_v0 : S5x16x256x256.Idx → EReal) = m ((c : Thread nD τ).loc main_arg1) := by
  dsimp only [Gen.V, Gen.hostOps0]
  after_results
  rfl

/-- The bias row the region finds is `hbias` behind a unit axis. -/
theorem V_bias (c : Dev nD) (q : Fin 4096) :
    (V m c main_v1 : S1x4096.Idx → EReal) (ix2 (0 : Fin 1) q) = m ((c : Thread nD τ).loc main_arg2) (ix1 q) := by
  have e : (V m c main_v1 : S1x4096.Idx → EReal)
      = shapeCast S1x4096 (m ((c : Thread nD τ).loc main_arg2) : S4096.Idx → EReal) shapeCasts_S4096_S1x4096 := by
    dsimp only [Gen.V, Gen.hostOps0]
    after_results
    rfl
  rw [e]
  refine shapeCast_apply _ shapeCasts_S4096_S1x4096 (ix2 (0 : Fin 1) q) (ix1 q) ?_
  rw [Shape.rowMajor_val_two, Shape.rowMajor_val_one]
  show q.val = 0 * 4096 + q.val
  omega

/-! ## The windows' index maps, decided over the grid -/

theorem idx_facts : ∀ t : Fin cfg0.N,
    win0_0.index t (0 : Fin 2) = t.val ∧ win0_0.index t (1 : Fin 2) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem idx_onto : ∀ q0 : Fin 16, ∃ t : Fin cfg0.N, win0_3.index t = ![q0.val, 0] :=
  (by decide +kernel : ∀ q0 : Fin 16, ∃ t : Fin grid0.N, win0_3.index t = ![q0.val, 0])

theorem point_lt (t : Fin cfg0.N) : t.val < 16 := by
  have h := t.isLt
  have hN : cfg0.N = 16 := N_0
  omega

/-! ## The blocks, read -/

/-- Row `p` of the block of `x` staged at point `t` is row `512 t + p` of `x`. -/
theorem read_x (c : Dev nD) (t : Fin cfg0.N) (p : Fin 512) (q : Fin 4096) (h : t.val * 512 + p.val < 8192) :
    iblk m c 0 t (ix2 p q) = m ((c : Thread nD τ).loc main_arg0) (ix2 (⟨t.val * 512 + p.val, h⟩ : Fin 8192) q) := by
  show V m c main_arg0 (((cfg0.win 0).blk t).view.emb (ix2 p q)) = _
  rw [V_main_arg0]
  refine congrArg _ (funext fun a => Fin.ext ?_)
  obtain ⟨e0, e1, -⟩ := idx_facts t
  match a with
  | ⟨0, _⟩ => show win0_0.index t (0 : Fin 2) * 512 + 1 * p.val = t.val * 512 + p.val; omega
  | ⟨1, _⟩ => show win0_0.index t (1 : Fin 2) * 4096 + 1 * q.val = q.val; omega

/-- The weight block staged at every point is the whole weight array. -/
theorem read_w (c : Dev nD) (t : Fin cfg0.N) (i : S5x16x256x256.Idx) :
    iblk m c 1 t i = m ((c : Thread nD τ).loc main_arg1) i := by
  show V m c main_v0 (((cfg0.win 1).blk t).view.emb i) = _
  rw [V_weights]
  refine congrArg _ (funext fun a => Fin.ext ?_)
  obtain ⟨-, -, e0, e1, e2, e3, -⟩ := idx_facts t
  match a with
  | ⟨0, _⟩ => show win0_1.index t (0 : Fin 4) * 5 + 1 * (i 0).val = (i 0).val; omega
  | ⟨1, _⟩ => show win0_1.index t (1 : Fin 4) * 16 + 1 * (i 1).val = (i 1).val; omega
  | ⟨2, _⟩ => show win0_1.index t (2 : Fin 4) * 256 + 1 * (i 2).val = (i 2).val; omega
  | ⟨3, _⟩ => show win0_1.index t (3 : Fin 4) * 256 + 1 * (i 3).val = (i 3).val; omega

/-- The bias block staged at every point is the whole bias row. -/
theorem read_b (c : Dev nD) (t : Fin cfg0.N) (q : Fin 4096) :
    iblk m c 2 t (ix2 (0 : Fin 1) q) = m ((c : Thread nD τ).loc main_arg2) (ix1 q) := by
  show V m c main_v1 (((cfg0.win 2).blk t).view.emb (ix2 (0 : Fin 1) q)) = _
  refine Eq.trans (congrArg _ (funext fun a => Fin.ext ?_)) (V_bias m c q)
  obtain ⟨-, -, -, -, -, -, e0, e1, -⟩ := idx_facts t
  match a with
  | ⟨0, _⟩ => show win0_2.index t (0 : Fin 2) * 1 + 1 * 0 = 0; omega
  | ⟨1, _⟩ => show win0_2.index t (1 : Fin 2) * 4096 + 1 * q.val = q.val; omega

/-- Where element `(p, q)` of the block written back at point `t` sits in the result array. -/
theorem emb_out (t : Fin cfg0.N) (p : Fin 512) (q : Fin 4096) (h : t.val * 512 + p.val < 8192) :
    ((cfg0.win 3).blk t).view.emb (ix2 p q) = ix2 (⟨t.val * 512 + p.val, h⟩ : Fin 8192) q := by
  refine funext fun a => Fin.ext ?_
  obtain ⟨-, -, -, -, -, -, -, -, e0, e1⟩ := idx_facts t
  match a with
  | ⟨0, _⟩ => show win0_3.index t (0 : Fin 2) * 512 + 1 * p.val = t.val * 512 + p.val; omega
  | ⟨1, _⟩ => show win0_3.index t (1 : Fin 2) * 4096 + 1 * q.val = q.val; omega

/-! ## What a point writes back, the cover, the array -/

/-- The result array as one function of the argument arrays. -/
abbrev result (c : Dev nD) : S8192x4096.Idx → EReal :=
  G (R := 8192) (m ((c : Thread nD τ).loc main_arg0)) (m ((c : Thread nD τ).loc main_arg1))
    (fun q => m ((c : Thread nD τ).loc main_arg2) (ix1 q))

/-- Point `t` writes back block `t` of `result`. -/
theorem flushed_eq
    (hout : ∀ (x0 : Vec Ideal S512x4096 .f32) (x1 : Vec Ideal S5x16x256x256 .bf16) (x2 : Vec Ideal S1x4096 .f32),
      out0_3 (F := Ideal) x0 x1 x2 = G (R := 512) x0 x1 (fun q => x2 (ix2 (0 : Fin 1) q)))
    (c : Dev nD) (t : Fin cfg0.N) :
    (dats m 0 c).flushed 3 t = ((cfg0.win 3).blk t).view.read (Elt Ideal) (result m c) := by
  rw [Value.flushed3, hout]
  funext y
  obtain ⟨p, q, rfl⟩ : ∃ (p : Fin 512) (q : Fin 4096), y = ix2 p q := ⟨y 0, y 1, eq_ix2 y⟩
  have ht := point_lt t
  have h : t.val * 512 + p.val < 8192 := by have := p.isLt; omega
  show Gc (iblk m c 0 t) (iblk m c 1 t) (fun q => iblk m c 2 t (ix2 (0 : Fin 1) q)) p q
      = result m c (((cfg0.win 3).blk t).view.emb (ix2 p q))
  rw [emb_out t p q h]
  exact Gc_rows (iblk m c 0 t) (m ((c : Thread nD τ).loc main_arg0)) (iblk m c 1 t) (m ((c : Thread nD τ).loc main_arg1))
    (fun q => iblk m c 2 t (ix2 (0 : Fin 1) q)) (fun q => m ((c : Thread nD τ).loc main_arg2) (ix1 q)) p ⟨t.val * 512 + p.val, h⟩
    (fun q' => read_x m c t p q' h) (funext (read_w m c t)) (funext (read_b m c t)) q

/-- An index is in point `t`'s block iff each coordinate is in the block's range on its axis. -/
theorem mem_blk (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v2).slice (win0_3.rect t)).set ↔ _
  rw [View.set_slice_whole, Rect.mem_set_unit]
  exact Iff.rfl

/-- Every index of the result array lies in the block of the point that owns its row. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- After the run the result array is `result`. -/
theorem final
    (hout : ∀ (x0 : Vec Ideal S512x4096 .f32) (x1 : Vec Ideal S5x16x256x256 .bf16) (x2 : Vec Ideal S1x4096 .f32),
      out0_3 (F := Ideal) x0 x1 x2 = G (R := 512) x0 x1 (fun q => x2 (ix2 (0 : Fin 1) q)))
    (c : Dev nD) : (dats m 0 c).arrAt 3 cfg0.N = result m c :=
  (dats m 0 c).arrAt_eq_of_cover 3 (result m c) (fun t _ => flushed_eq m hout c t) cover

/-- The kernel's run with the result array named: `G` of the argument arrays, which end unchanged. -/
theorem run
    (hout : ∀ (x0 : Vec Ideal S512x4096 .f32) (x1 : Vec Ideal S5x16x256x256 .bf16) (x2 : Vec Ideal S1x4096 .f32),
      out0_3 (F := Ideal) x0 x1 x2 = G (R := 512) x0 x1 (fun q => x2 (ix2 (0 : Fin 1) q))) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hout c), (h c).2⟩) (Value.run_blocks m ρ)

end Cert.Hypercube.Kernel

end
-- ==== Proof.LibScatterSet.lean ====
/-
  Reading a "set" scatter at an index.

  A scatter whose body returns the update (the second argument) overwrites the operand at the result index of each
  update index, in row-major order of the update indices. When distinct update indices never land on the same operand
  index, the order does not matter: the result at an operand index is the update that lands there, if one does, and the
  operand's own element otherwise.
-/
import Idealize.ShloMosaic.PureOps.ShapeOps

noncomputable section

namespace Idealize.ShloMosaic

/-- The invariant of a left fold of overwriting steps over ANY list `L` of update positions. `step r n` overwrites `r`
    at the result index of update position `n` with that position's update, and leaves `r` alone when the position has
    no result index. If two update indices that land on the same operand index are equal, then after the fold the
    element at `i` is the update of any position of `L` that lands on `i`, and the starting element when no position of
    `L` lands on `i`. -/
theorem scatter_set_foldl {s si u : Shape} {α : Type} {w : Nat} (d : ScatterDims s si u) (idx : IVec si w) (upd : u.Idx → α)
    (step : (s.Idx → α) → Fin u.numel → (s.Idx → α))
    (hsome : ∀ r n i0, d.resultIdx? (u.rowMajor.symm n) idx = some i0 →
      step r n = fun i' => if i' = i0 then upd (u.rowMajor.symm n) else r i')
    (hnone : ∀ r n, d.resultIdx? (u.rowMajor.symm n) idx = none → step r n = r)
    (hinj : ∀ j j' i, d.resultIdx? j idx = some i → d.resultIdx? j' idx = some i → j = j') (i : s.Idx)
    (L : List (Fin u.numel)) : ∀ x : s.Idx → α,
      (∀ n ∈ L, d.resultIdx? (u.rowMajor.symm n) idx = some i → L.foldl step x i = upd (u.rowMajor.symm n)) ∧
      ((∀ n ∈ L, d.resultIdx? (u.rowMajor.symm n) idx ≠ some i) → L.foldl step x i = x i) := by
  induction L with
  | nil =>
    intro x
    exact ⟨fun n hn => absurd hn List.not_mem_nil, fun _ => rfl⟩
  | cons a L ih =>
    intro x
    rw [List.foldl_cons]
    -- the element at `i` right after the first step, when the first position does not land on `i`
    have hfirst_miss : d.resultIdx? (u.rowMajor.symm a) idx ≠ some i → step x a i = x i := by
      intro hne
      cases hr : d.resultIdx? (u.rowMajor.symm a) idx with
      | none => rw [hnone x a hr]
      | some i0 =>
        rw [hsome x a i0 hr]
        have : i ≠ i0 := fun e => hne (by rw [hr, e])
        simp only [if_neg this]
    -- and when it does
    have hfirst_hit : d.resultIdx? (u.rowMajor.symm a) idx = some i → step x a i = upd (u.rowMajor.symm a) := by
      intro hr
      rw [hsome x a i hr]
      simp only [if_pos]
    refine ⟨?_, ?_⟩
    · intro n hn hhit
      by_cases hex : ∃ m ∈ L, d.resultIdx? (u.rowMajor.symm m) idx = some i
      · obtain ⟨m, hm, hmhit⟩ := hex
        rw [(ih (step x a)).1 m hm hmhit, hinj _ _ i hmhit hhit]
      · have hmiss : ∀ m ∈ L, d.resultIdx? (u.rowMajor.symm m) idx ≠ some i := fun m hm h => hex ⟨m, hm, h⟩
        rw [(ih (step x a)).2 hmiss]
        rcases List.mem_cons.1 hn with rfl | hn'
        · exact hfirst_hit hhit
        · exact absurd hhit (hmiss n hn')
    · intro hmiss
      rw [(ih (step x a)).2 fun m hm => hmiss m (List.mem_cons_of_mem _ hm)]
      exact hfirst_miss (hmiss a List.mem_cons_self)

/-- `Host.scatter` with the body that returns the update is the fold of overwriting steps `scatter_set_foldl` speaks of. -/
theorem scatter_set_apply_aux {s si u : Shape} {α : Type} {w : Nat} (d : ScatterDims s si u) (x : s.Idx → α) (idx : IVec si w)
    (upd : u.Idx → α) (hinj : ∀ j j' i, d.resultIdx? j idx = some i → d.resultIdx? j' idx = some i → j = j') (i : s.Idx) :
    (∀ n : Fin u.numel, d.resultIdx? (u.rowMajor.symm n) idx = some i →
        Host.scatter d (fun _ b => b) x idx upd i = upd (u.rowMajor.symm n)) ∧
      ((∀ n : Fin u.numel, d.resultIdx? (u.rowMajor.symm n) idx ≠ some i) →
        Host.scatter d (fun _ b => b) x idx upd i = x i) := by
  have h := scatter_set_foldl d idx upd
    (fun r n =>
      match d.resultIdx? (u.rowMajor.symm n) idx with
      | some i => fun i' => if i' = i then (fun _ b => b) (r i) (upd (u.rowMajor.symm n)) else r i'
      | none => r)
    (fun r n i0 hr => by simp only [hr]) (fun r n hr => by simp only [hr]) hinj i (List.finRange u.numel) x
  exact ⟨fun n hn => h.1 n (List.mem_finRange n) hn, fun hmiss => h.2 fun n _ => hmiss n⟩

/-- **A set-scatter read where an update lands.** When distinct update indices never land on the same operand index,
    and update index `j` lands on operand index `i`, the result at `i` is the update at `j`. -/
theorem scatter_set_apply_of_hit {s si u : Shape} {α : Type} {w : Nat} (d : ScatterDims s si u) (x : s.Idx → α) (idx : IVec si w)
    (upd : u.Idx → α) (hinj : ∀ j j' i, d.resultIdx? j idx = some i → d.resultIdx? j' idx = some i → j = j')
    (j : u.Idx) (i : s.Idx) (h : d.resultIdx? j idx = some i) :
    Host.scatter d (fun _ b => b) x idx upd i = upd j := by
  have := (scatter_set_apply_aux d x idx upd hinj i).1 (u.rowMajor j) (by rw [Equiv.symm_apply_apply]; exact h)
  rw [Equiv.symm_apply_apply] at this
  exact this

/-- **A set-scatter read where no update lands.** When distinct update indices never land on the same operand index,
    and no update index lands on operand index `i`, the result at `i` is the operand's element. -/
theorem scatter_set_apply_of_miss {s si u : Shape} {α : Type} {w : Nat} (d : ScatterDims s si u) (x : s.Idx → α) (idx : IVec si w)
    (upd : u.Idx → α) (hinj : ∀ j j' i, d.resultIdx? j idx = some i → d.resultIdx? j' idx = some i → j = j')
    (i : s.Idx) (h : ∀ j, d.resultIdx? j idx ≠ some i) :
    Host.scatter d (fun _ b => b) x idx upd i = x i :=
  (scatter_set_apply_aux d x idx upd hinj i).2 fun n => h (u.rowMajor.symm n)

end Idealize.ShloMosaic

end
-- ==== Proof.RResIdx.lean ====
/-
  Where one update of the block scatter lands.

  The scatter writes a [16, 256, 256] array of updates into a [16, 16, 256, 256] operand: update `(s, o, k)` goes to
  operand position `(I[s, 0], I[s, 1], o, k)`, where `I` is the [16, 2] array of 32-bit scatter indices, read signed.
  When the two words of row `s` are the numbers `a, b < 16`, that position is `(a, b, o, k)` and lies inside the operand.
-/
import Idealize.ShloMosaic.PureOps.ShapeOps
import Idealize.ShloMosaic.Lib.ValueIdx

noncomputable section

namespace Cert.Hypercube.Ref

open Idealize.ShloMosaic Idealize.ShloMosaic.ValueIdx

/-- A number below 16, as a 32-bit word read signed, is itself. -/
theorem toInt_ofNat_lt16 : ∀ a : Fin 16, (BitVec.ofNat 32 a.val).toInt = (a.val : Int) := by decide

/-- The dimension numbers of the block scatter, over a well-formedness proof. -/
abbrev blockDims (wf : ScatterDims.WF ⟨4, ![16, 16, 256, 256]⟩ ⟨2, ![16, 2]⟩ ⟨3, ![16, 256, 256]⟩ [1, 2] [0, 1] [0, 1] 1) :
    ScatterDims ⟨4, ![16, 16, 256, 256]⟩ ⟨2, ![16, 2]⟩ ⟨3, ![16, 256, 256]⟩ :=
  { updateWindowDims := [1, 2], insertedWindowDims := [0, 1], scatterDimsToOperandDims := [0, 1], indexVectorDim := 1, wf := wf }

section
variable (wf : ScatterDims.WF ⟨4, ![16, 16, 256, 256]⟩ ⟨2, ![16, 2]⟩ ⟨3, ![16, 256, 256]⟩ [1, 2] [0, 1] [0, 1] 1)
  (I : IVec ⟨2, ![16, 2]⟩ 32) (s : Fin 16) (o k : Fin 256)

theorem siIdx0 (c : Fin 2) : (blockDims wf).siIdx (ix3 s o k) c = ix2 s c := by
  funext b
  match b with
  | ⟨0, _⟩ => rfl
  | ⟨1, _⟩ => rfl

/-- The window starts of update `(s, o, k)`: the two words of row `s` on the two block axes, nothing on the others. -/
theorem start_eq (e : Fin 4) : (blockDims wf).start (ix3 s o k) I e =
    (![(I (ix2 s 0)).toInt, (I (ix2 s 1)).toInt, 0, 0] : Fin 4 → Int) e := by
  match e with
  | ⟨0, _⟩ =>
    show (I ((blockDims wf).siIdx (ix3 s o k) (0 : Fin 2))).toInt = _
    rw [siIdx0]; rfl
  | ⟨1, _⟩ =>
    show (I ((blockDims wf).siIdx (ix3 s o k) (1 : Fin 2))).toInt = _
    rw [siIdx0]; rfl
  | ⟨2, _⟩ => rfl
  | ⟨3, _⟩ => rfl

/-- The window coordinates of update `(s, o, k)`: `o` and `k` on the two inner axes, nothing on the block axes. -/
theorem window_eq (e : Fin 4) : (blockDims wf).window (ix3 s o k) e = (![0, 0, o.val, k.val] : Fin 4 → Nat) e := by
  match e with
  | ⟨0, _⟩ => rfl
  | ⟨1, _⟩ => rfl
  | ⟨2, _⟩ => rfl
  | ⟨3, _⟩ => rfl

/-- **Where update `(s, o, k)` lands**, when row `s` of the scatter indices holds the numbers `a, b < 16`. -/
theorem resultIdx_blockDims (a b : Fin 16) (h0 : I (ix2 s 0) = BitVec.ofNat 32 a.val) (h1 : I (ix2 s 1) = BitVec.ofNat 32 b.val) :
    (blockDims wf).resultIdx? (ix3 s o k) I = some (ix4 a b o k) := by
  have hv : ∀ e : Fin 4, (blockDims wf).start (ix3 s o k) I e + ((blockDims wf).window (ix3 s o k) e : Int) =
      ((![a.val, b.val, o.val, k.val] : Fin 4 → Nat) e : Int) := by
    intro e
    rw [start_eq, window_eq, h0, h1, toInt_ofNat_lt16, toInt_ofNat_lt16]
    match e with
    | ⟨0, _⟩ => simp
    | ⟨1, _⟩ => simp
    | ⟨2, _⟩ => simp
    | ⟨3, _⟩ => simp
  have hlt : ∀ e : Fin 4, (![a.val, b.val, o.val, k.val] : Fin 4 → Nat) e < (![16, 16, 256, 256] : Fin 4 → Nat) e := by
    intro e
    match e with
    | ⟨0, _⟩ => exact a.isLt
    | ⟨1, _⟩ => exact b.isLt
    | ⟨2, _⟩ => exact o.isLt
    | ⟨3, _⟩ => exact k.isLt
  have H : ∀ e, 0 ≤ (blockDims wf).start (ix3 s o k) I e + ((blockDims wf).window (ix3 s o k) e : Int) ∧
      (blockDims wf).start (ix3 s o k) I e + ((blockDims wf).window (ix3 s o k) e : Int)
        < ((⟨4, ![16, 16, 256, 256]⟩ : Shape).size e : Int) := by
    intro e
    rw [hv e]
    exact ⟨Int.natCast_nonneg _, Int.ofNat_lt.2 (hlt e)⟩
  unfold ScatterDims.resultIdx?
  rw [dif_pos H]
  refine congrArg some ?_
  funext e
  apply Fin.ext
  show ((blockDims wf).start (ix3 s o k) I e + ((blockDims wf).window (ix3 s o k) e : Int)).toNat = (ix4 a b o k e).val
  rw [hv e, Int.toNat_natCast]
  match e with
  | ⟨0, _⟩ => rfl
  | ⟨1, _⟩ => rfl
  | ⟨2, _⟩ => rfl
  | ⟨3, _⟩ => rfl

end

end Cert.Hypercube.Ref

end
-- ==== Proof.RBlockScatter.lean ====
/-
  Reading the block scatter at an index.

  The scatter indices' row `s` holds the pair `(f s, s)` for a function `f` on the 16 block numbers, so update block `s`
  is written to block position `(f s, s)` of the operand. Distinct update positions land on distinct operand positions
  (the second block coordinate and the two inner coordinates are the update's own), so the result at `(A, B, o, k)` is
  the update at `(B, o, k)` when `A = f B` and the operand's element otherwise.
-/
import proofs.«137747_j29446295781761_2_alg».proof.Proof.LibScatterSet
import proofs.«137747_j29446295781761_2_alg».proof.Proof.RResIdx

noncomputable section

namespace Cert.Hypercube.Ref

open Idealize.ShloMosaic Idealize.ShloMosaic.ValueIdx

section
variable (wf : ScatterDims.WF ⟨4, ![16, 16, 256, 256]⟩ ⟨2, ![16, 2]⟩ ⟨3, ![16, 256, 256]⟩ [1, 2] [0, 1] [0, 1] 1)
  (f : Fin 16 → Fin 16) (I : IVec ⟨2, ![16, 2]⟩ 32)
  (h0 : ∀ s : Fin 16, I (ix2 s 0) = BitVec.ofNat 32 (f s).val) (h1 : ∀ s : Fin 16, I (ix2 s 1) = BitVec.ofNat 32 s.val)
include h0 h1

/-- Update `(s, o, k)` lands on `(f s, s, o, k)`. -/
theorem resultIdx_pair (s : Fin 16) (o k : Fin 256) : (blockDims wf).resultIdx? (ix3 s o k) I = some (ix4 (f s) s o k) :=
  resultIdx_blockDims wf I s o k (f s) s (h0 s) (h1 s)

/-- An update that lands on `(A, B, o, k)` is update `(B, o, k)`, and `A = f B`. -/
theorem eq_of_resultIdx_pair (j : (⟨3, ![16, 256, 256]⟩ : Shape).Idx) (A B : Fin 16) (o k : Fin 256)
    (h : (blockDims wf).resultIdx? j I = some (ix4 A B o k)) : j = ix3 B o k ∧ A = f B := by
  obtain ⟨s, o', k', rfl⟩ : ∃ (s : Fin 16) (o' k' : Fin 256), j = ix3 s o' k' := ⟨j 0, j 1, j 2, eq_ix3 j⟩
  rw [resultIdx_pair wf f I h0 h1] at h
  have e : ix4 (f s) s o' k' = ix4 A B o k := Option.some.inj h
  have e0 : f s = A := congrFun e (0 : Fin 4)
  have e1 : s = B := congrFun e (1 : Fin 4)
  have e2 : o' = o := congrFun e (2 : Fin 4)
  have e3 : k' = k := congrFun e (3 : Fin 4)
  subst e1 e2 e3
  exact ⟨rfl, e0.symm⟩

/-- Distinct updates land on distinct operand positions. -/
theorem resultIdx_pair_inj (j j' : (⟨3, ![16, 256, 256]⟩ : Shape).Idx) (i : (⟨4, ![16, 16, 256, 256]⟩ : Shape).Idx)
    (hj : (blockDims wf).resultIdx? j I = some i) (hj' : (blockDims wf).resultIdx? j' I = some i) : j = j' := by
  rw [eq_ix4 i] at hj hj'
  exact (eq_of_resultIdx_pair wf f I h0 h1 j _ _ _ _ hj).1.trans (eq_of_resultIdx_pair wf f I h0 h1 j' _ _ _ _ hj').1.symm

/-- **The block scatter at `(A, B, o, k)`**: update `(B, o, k)` when `A = f B`, the operand's element otherwise. -/
theorem scatter_block_apply {α : Type} (x : (⟨4, ![16, 16, 256, 256]⟩ : Shape).Idx → α)
    (upd : (⟨3, ![16, 256, 256]⟩ : Shape).Idx → α) (A B : Fin 16) (o k : Fin 256) :
    Host.scatter (blockDims wf) (fun _ b => b) x I upd (ix4 A B o k) =
      if A = f B then upd (ix3 B o k) else x (ix4 A B o k) := by
  have hinj := resultIdx_pair_inj wf f I h0 h1
  by_cases hA : A = f B
  · rw [if_pos hA]
    refine scatter_set_apply_of_hit (blockDims wf) x I upd hinj (ix3 B o k) (ix4 A B o k) ?_
    rw [resultIdx_pair wf f I h0 h1, hA]
  · rw [if_neg hA]
    refine scatter_set_apply_of_miss (blockDims wf) x I upd hinj (ix4 A B o k) fun j h => ?_
    exact hA (eq_of_resultIdx_pair wf f I h0 h1 j A B o k h).2

end

end Cert.Hypercube.Ref

end
-- ==== Proof.RIdxArr.lean ====
/-
  The five arrays of scatter indices.

  Each is a [16, 2] array of 32-bit words built from the numbers `0 … 15`: row `s` holds the pair
  `(s xor mask t, s)` for direction `t`. The words are computed from an iota by an exclusive-or with a constant and a
  "negative wraps around" select that never fires; all of it is arithmetic on sixteen literal words, so each entry is
  checked by evaluation.
-/
import proofs.«137747_j29446295781761_2_alg».proof.Proof.Spec
import proofs.«137747_j29446295781761_2_alg».proof.Proof.Gen.ReferenceIdeal.Read

noncomputable section

namespace Cert.Hypercube.Ref

open Idealize.ShloMosaic Idealize.ShloMosaic.ValueIdx Cert.ReferenceIdeal Cert.ReferenceIdeal.Read

/-- Column 0 of two [16, 1] arrays joined along axis 1 is the first array. -/
theorem concat_col0 (h : Shape.Concatenates [S16x1, S16x1] S16x2 1) (a b : S16x1.Idx → BitVec 32) (s : Fin 16) :
    concatenate S16x2 1 [⟨S16x1, a⟩, ⟨S16x1, b⟩] h (ix2 s 0) = a (ix2 s 0) :=
  concatenate_pair_apply_left 1 a b h (ix2 s 0) rfl (ix2 s 0) (fun c => match c with
    | ⟨0, _⟩ => rfl
    | ⟨1, _⟩ => rfl)

/-- Column 1 of two [16, 1] arrays joined along axis 1 is the second array. -/
theorem concat_col1 (h : Shape.Concatenates [S16x1, S16x1] S16x2 1) (a b : S16x1.Idx → BitVec 32) (s : Fin 16) :
    concatenate S16x2 1 [⟨S16x1, a⟩, ⟨S16x1, b⟩] h (ix2 s 1) = b (ix2 s 0) :=
  concatenate_pair_apply_right 1 a b h (ix2 s 1) rfl rfl (ix2 s 0) (fun c hc => match c, hc with
    | ⟨0, _⟩, _ => rfl
    | ⟨1, _⟩, hc => absurd rfl hc) rfl

/-- The index a [16] array is read at for row `s` of its [16, 1] broadcast. -/
theorem bidx (s : Fin 16) : (fun a : Fin 1 => match a with | ⟨0, _⟩ => (⟨(ix2 s (0 : Fin 1) 0).val, (ix2 s (0 : Fin 1) 0).isLt⟩ : Fin 16)) = ix1 s := by
  funext a
  match a with
  | ⟨0, _⟩ => rfl

/-! ## The words, by evaluation -/

/-- Direction 0, first word of row `s`: the neighbour's number. -/
theorem w8 : ∀ s : Fin 16, (val_main_v8 (F := Ideal) (ix1 s) : BitVec 32) = BitVec.ofNat 32 (nbr s 0).val := by decide
/-- Direction 0, second word of row `s`: `s` itself. -/
theorem w13 : ∀ s : Fin 16, (val_main_v13 (F := Ideal) (ix1 s) : BitVec 32) = BitVec.ofNat 32 s.val := by decide

/-- Direction 1, first word of row `s`: the neighbour's number. -/
theorem w26 : ∀ s : Fin 16, (val_main_v26 (F := Ideal) (ix1 s) : BitVec 32) = BitVec.ofNat 32 (nbr s 1).val := by decide
/-- Direction 1, second word of row `s`: `s` itself. -/
theorem w31 : ∀ s : Fin 16, (val_main_v31 (F := Ideal) (ix1 s) : BitVec 32) = BitVec.ofNat 32 s.val := by decide

/-- Direction 2, first word of row `s`: the neighbour's number. -/
theorem w44 : ∀ s : Fin 16, (val_main_v44 (F := Ideal) (ix1 s) : BitVec 32) = BitVec.ofNat 32 (nbr s 2).val := by decide
/-- Direction 2, second word of row `s`: `s` itself. -/
theorem w49 : ∀ s : Fin 16, (val_main_v49 (F := Ideal) (ix1 s) : BitVec 32) = BitVec.ofNat 32 s.val := by decide

/-- Direction 3, first word of row `s`: the neighbour's number. -/
theorem w62 : ∀ s : Fin 16, (val_main_v62 (F := Ideal) (ix1 s) : BitVec 32) = BitVec.ofNat 32 (nbr s 3).val := by decide
/-- Direction 3, second word of row `s`: `s` itself. -/
theorem w67 : ∀ s : Fin 16, (val_main_v67 (F := Ideal) (ix1 s) : BitVec 32) = BitVec.ofNat 32 s.val := by decide

/-- Direction 4, first word of row `s`: the neighbour's number. -/
theorem w80 : ∀ s : Fin 16, (val_main_v80 (F := Ideal) (ix1 s) : BitVec 32) = BitVec.ofNat 32 (nbr s 4).val := by decide
/-- Direction 4, second word of row `s`: `s` itself. -/
theorem w85 : ∀ s : Fin 16, (val_main_v85 (F := Ideal) (ix1 s) : BitVec 32) = BitVec.ofNat 32 s.val := by decide

/-! ## The five index arrays -/

/-- Direction 0: row `s` of the scatter indices is `(nbr s 0, s)`. -/
theorem v16_entries (s : Fin 16) : val_main_v16 (F := Ideal) (ix2 s 0) = BitVec.ofNat 32 (nbr s 0).val ∧
    val_main_v16 (F := Ideal) (ix2 s 1) = BitVec.ofNat 32 s.val := by
  unfold val_main_v16
  rw [concat_col0, concat_col1, val_main_v14_apply, val_main_v15_apply]
  exact ⟨(congrArg _ (bidx s)).trans (w8 s), (congrArg _ (bidx s)).trans (w13 s)⟩

/-- Direction 1: row `s` of the scatter indices is `(nbr s 1, s)`. -/
theorem v34_entries (s : Fin 16) : val_main_v34 (F := Ideal) (ix2 s 0) = BitVec.ofNat 32 (nbr s 1).val ∧
    val_main_v34 (F := Ideal) (ix2 s 1) = BitVec.ofNat 32 s.val := by
  unfold val_main_v34
  rw [concat_col0, concat_col1, val_main_v32_apply, val_main_v33_apply]
  exact ⟨(congrArg _ (bidx s)).trans (w26 s), (congrArg _ (bidx s)).trans (w31 s)⟩

/-- Direction 2: row `s` of the scatter indices is `(nbr s 2, s)`. -/
theorem v52_entries (s : Fin 16) : val_main_v52 (F := Ideal) (ix2 s 0) = BitVec.ofNat 32 (nbr s 2).val ∧
    val_main_v52 (F := Ideal) (ix2 s 1) = BitVec.ofNat 32 s.val := by
  unfold val_main_v52
  rw [concat_col0, concat_col1, val_main_v50_apply, val_main_v51_apply]
  exact ⟨(congrArg _ (bidx s)).trans (w44 s), (congrArg _ (bidx s)).trans (w49 s)⟩

/-- Direction 3: row `s` of the scatter indices is `(nbr s 3, s)`. -/
theorem v70_entries (s : Fin 16) : val_main_v70 (F := Ideal) (ix2 s 0) = BitVec.ofNat 32 (nbr s 3).val ∧
    val_main_v70 (F := Ideal) (ix2 s 1) = BitVec.ofNat 32 s.val := by
  unfold val_main_v70
  rw [concat_col0, concat_col1, val_main_v68_apply, val_main_v69_apply]
  exact ⟨(congrArg _ (bidx s)).trans (w62 s), (congrArg _ (bidx s)).trans (w67 s)⟩

/-- Direction 4: row `s` of the scatter indices is `(nbr s 4, s)`. -/
theorem v88_entries (s : Fin 16) : val_main_v88 (F := Ideal) (ix2 s 0) = BitVec.ofNat 32 (nbr s 4).val ∧
    val_main_v88 (F := Ideal) (ix2 s 1) = BitVec.ofNat 32 s.val := by
  unfold val_main_v88
  rw [concat_col0, concat_col1, val_main_v86_apply, val_main_v87_apply]
  exact ⟨(congrArg _ (bidx s)).trans (w80 s), (congrArg _ (bidx s)).trans (w85 s)⟩

end Cert.Hypercube.Ref

end
-- ==== Proof.RUpd.lean ====
/-
  The five update arrays.

  Update array `t` is slice `t` of the weights along the direction axis, with that axis (of size one) dropped: its
  element `(B, o, k)` is the weights' element `(t, B, o, k)`.
-/
import proofs.«137747_j29446295781761_2_alg».proof.Proof.Gen.ReferenceIdeal.Read

noncomputable section

namespace Cert.Hypercube.Ref

open Idealize.ShloMosaic Idealize.ShloMosaic.ValueIdx Cert.ReferenceIdeal Cert.ReferenceIdeal.Read

/-- Row-major position `(B, o, k)` of a [16, 256, 256] array, split back into its three coordinates. -/
theorem unflatten (B : Fin 16) (o k : Fin 256) :
    ((B.val * 256 + o.val) * 256 + k.val) / 65536 % 16 = B.val ∧ ((B.val * 256 + o.val) * 256 + k.val) / 256 % 256 = o.val ∧
      ((B.val * 256 + o.val) * 256 + k.val) % 256 = k.val := by
  have := B.isLt; have := o.isLt; have := k.isLt
  omega

/-- Update array 0 at `(B, o, k)` is the weights at `(0, B, o, k)`. -/
theorem upd0 (hw : (⟨S5x16x256x256, .f32⟩ : BufTy).Contents (Elt Ideal)) (B : Fin 16) (o k : Fin 256) :
    val_main_v3 (F := Ideal) hw (ix3 B o k) = hw (ix4 0 B o k) := by
  rw [val_main_v3_apply, val_main_v2_apply]
  refine congrArg hw ?_
  funext e
  match e with
  | ⟨0, _⟩ => rfl
  | ⟨1, _⟩ => exact Fin.ext (unflatten B o k).1
  | ⟨2, _⟩ => exact Fin.ext (unflatten B o k).2.1
  | ⟨3, _⟩ => exact Fin.ext (unflatten B o k).2.2

/-- Update array 1 at `(B, o, k)` is the weights at `(1, B, o, k)`. -/
theorem upd1 (hw : (⟨S5x16x256x256, .f32⟩ : BufTy).Contents (Elt Ideal)) (B : Fin 16) (o k : Fin 256) :
    val_main_v21 (F := Ideal) hw (ix3 B o k) = hw (ix4 1 B o k) := by
  rw [val_main_v21_apply, val_main_v20_apply]
  refine congrArg hw ?_
  funext e
  match e with
  | ⟨0, _⟩ => rfl
  | ⟨1, _⟩ => exact Fin.ext (unflatten B o k).1
  | ⟨2, _⟩ => exact Fin.ext (unflatten B o k).2.1
  | ⟨3, _⟩ => exact Fin.ext (unflatten B o k).2.2

/-- Update array 2 at `(B, o, k)` is the weights at `(2, B, o, k)`. -/
theorem upd2 (hw : (⟨S5x16x256x256, .f32⟩ : BufTy).Contents (Elt Ideal)) (B : Fin 16) (o k : Fin 256) :
    val_main_v39 (F := Ideal) hw (ix3 B o k) = hw (ix4 2 B o k) := by
  rw [val_main_v39_apply, val_main_v38_apply]
  refine congrArg hw ?_
  funext e
  match e with
  | ⟨0, _⟩ => rfl
  | ⟨1, _⟩ => exact Fin.ext (unflatten B o k).1
  | ⟨2, _⟩ => exact Fin.ext (unflatten B o k).2.1
  | ⟨3, _⟩ => exact Fin.ext (unflatten B o k).2.2

/-- Update array 3 at `(B, o, k)` is the weights at `(3, B, o, k)`. -/
theorem upd3 (hw : (⟨S5x16x256x256, .f32⟩ : BufTy).Contents (Elt Ideal)) (B : Fin 16) (o k : Fin 256) :
    val_main_v57 (F := Ideal) hw (ix3 B o k) = hw (ix4 3 B o k) := by
  rw [val_main_v57_apply, val_main_v56_apply]
  refine congrArg hw ?_
  funext e
  match e with
  | ⟨0, _⟩ => rfl
  | ⟨1, _⟩ => exact Fin.ext (unflatten B o k).1
  | ⟨2, _⟩ => exact Fin.ext (unflatten B o k).2.1
  | ⟨3, _⟩ => exact Fin.ext (unflatten B o k).2.2

/-- Update array 4 at `(B, o, k)` is the weights at `(4, B, o, k)`. -/
theorem upd4 (hw : (⟨S5x16x256x256, .f32⟩ : BufTy).Contents (Elt Ideal)) (B : Fin 16) (o k : Fin 256) :
    val_main_v75 (F := Ideal) hw (ix3 B o k) = hw (ix4 4 B o k) := by
  rw [val_main_v75_apply, val_main_v74_apply]
  refine congrArg hw ?_
  funext e
  match e with
  | ⟨0, _⟩ => rfl
  | ⟨1, _⟩ => exact Fin.ext (unflatten B o k).1
  | ⟨2, _⟩ => exact Fin.ext (unflatten B o k).2.1
  | ⟨3, _⟩ => exact Fin.ext (unflatten B o k).2.2

end Cert.Hypercube.Ref

end
-- ==== Proof.RWeight.lean ====
/-
  The reference's dense weight grid.

  The reference starts from a [16, 16, 256, 256] array of zeros and scatters the five direction slices of the weights
  into it, direction `t` writing block `s` of its slice to block position `(s xor mask t, s)`. Reading the five
  scatters back from the last to the first at position `(A, B, o, k)`: scatter `t` wrote there exactly when
  `A = B xor mask t`, that is when `B` is `A`'s neighbour in direction `t`, and then the element is the weights' at
  `(t, B, o, k)`; where no scatter wrote, the zero stays. This is the grid `W` of the specification.
-/
import proofs.«137747_j29446295781761_2_alg».proof.Proof.Spec
import proofs.«137747_j29446295781761_2_alg».proof.Proof.Gen.ReferenceIdeal.Read
import proofs.«137747_j29446295781761_2_alg».proof.Proof.RBlockScatter
import proofs.«137747_j29446295781761_2_alg».proof.Proof.RIdxArr
import proofs.«137747_j29446295781761_2_alg».proof.Proof.RUpd
import Idealize.ShloMosaic.PureOps.Ideal.Laws

noncomputable section

namespace Cert.Hypercube.Ref

open Idealize.ShloMosaic Idealize.ShloMosaic.ValueIdx Cert.ReferenceIdeal Cert.ReferenceIdeal.Read

/-- Being a neighbour in direction `t` is symmetric: flipping the same bit twice gives the node back. -/
theorem nbr_symm : ∀ (t : Fin 5) (A B : Fin 16), A = nbr B t ↔ B = nbr A t := by decide

/-- The array of zeros the scatters start from. -/
theorem zeros_apply (i : S16x16x256x256.Idx) : val_main_v1 (F := Ideal) i = (0 : EReal) :=
  (val_main_v1_apply i).trans Ideal.ofBits_zero_f32

section
variable (hw : (⟨S5x16x256x256, .f32⟩ : BufTy).Contents (Elt Ideal)) (A B : Fin 16) (o k : Fin 256)

/-- The array after the scatter of direction 0. -/
theorem step0 : val_main_v17 (F := Ideal) hw (ix4 A B o k) =
    if B = nbr A 0 then hw (ix4 0 B o k) else (0 : EReal) := by
  unfold val_main_v17
  generalize hx : val_main_v1 (F := Ideal) = x
  have hz : x (ix4 A B o k) = (0 : EReal) := by rw [← hx]; exact zeros_apply _
  exact (scatter_block_apply _ (fun s => nbr s 0) (val_main_v16 (F := Ideal)) (fun s => (v16_entries s).1)
    (fun s => (v16_entries s).2) x (val_main_v3 (F := Ideal) hw) A B o k).trans
    (if_congr (nbr_symm 0 A B) (upd0 hw B o k) hz)

/-- The array after the scatter of direction 1. -/
theorem step1 : val_main_v35 (F := Ideal) hw (ix4 A B o k) =
    if B = nbr A 1 then hw (ix4 1 B o k) else val_main_v17 (F := Ideal) hw (ix4 A B o k) := by
  unfold val_main_v35
  generalize val_main_v17 (F := Ideal) hw = x
  exact (scatter_block_apply _ (fun s => nbr s 1) (val_main_v34 (F := Ideal)) (fun s => (v34_entries s).1)
    (fun s => (v34_entries s).2) x (val_main_v21 (F := Ideal) hw) A B o k).trans
    (if_congr (nbr_symm 1 A B) (upd1 hw B o k) rfl)

/-- The array after the scatter of direction 2. -/
theorem step2 : val_main_v53 (F := Ideal) hw (ix4 A B o k) =
    if B = nbr A 2 then hw (ix4 2 B o k) else val_main_v35 (F := Ideal) hw (ix4 A B o k) := by
  unfold val_main_v53
  generalize val_main_v35 (F := Ideal) hw = x
  exact (scatter_block_apply _ (fun s => nbr s 2) (val_main_v52 (F := Ideal)) (fun s => (v52_entries s).1)
    (fun s => (v52_entries s).2) x (val_main_v39 (F := Ideal) hw) A B o k).trans
    (if_congr (nbr_symm 2 A B) (upd2 hw B o k) rfl)

/-- The array after the scatter of direction 3. -/
theorem step3 : val_main_v71 (F := Ideal) hw (ix4 A B o k) =
    if B = nbr A 3 then hw (ix4 3 B o k) else val_main_v53 (F := Ideal) hw (ix4 A B o k) := by
  unfold val_main_v71
  generalize val_main_v53 (F := Ideal) hw = x
  exact (scatter_block_apply _ (fun s => nbr s 3) (val_main_v70 (F := Ideal)) (fun s => (v70_entries s).1)
    (fun s => (v70_entries s).2) x (val_main_v57 (F := Ideal) hw) A B o k).trans
    (if_congr (nbr_symm 3 A B) (upd3 hw B o k) rfl)

/-- The array after the scatter of direction 4. -/
theorem step4 : val_main_v89 (F := Ideal) hw (ix4 A B o k) =
    if B = nbr A 4 then hw (ix4 4 B o k) else val_main_v71 (F := Ideal) hw (ix4 A B o k) := by
  unfold val_main_v89
  generalize val_main_v71 (F := Ideal) hw = x
  exact (scatter_block_apply _ (fun s => nbr s 4) (val_main_v88 (F := Ideal)) (fun s => (v88_entries s).1)
    (fun s => (v88_entries s).2) x (val_main_v75 (F := Ideal) hw) A B o k).trans
    (if_congr (nbr_symm 4 A B) (upd4 hw B o k) rfl)

end

/-- **The reference's dense weight array is the specification's grid `W`.** -/
theorem dense_eq (hw : (⟨Cert.ReferenceIdeal.S5x16x256x256, .f32⟩ : BufTy).Contents (Elt Ideal)) :
    Cert.ReferenceIdeal.Read.val_main_v89 (F := Ideal) hw = Cert.Hypercube.W hw := by
  funext i
  obtain ⟨A, B, o, k, rfl⟩ : ∃ (A B : Fin 16) (o k : Fin 256), i = ix4 A B o k := ⟨i 0, i 1, i 2, i 3, eq_ix4 i⟩
  show _ = Wc hw A B o k
  unfold Wc
  rw [step4, step3, step2, step1, step0]

end Cert.Hypercube.Ref

end
-- ==== Proof.SumAlgebra.lean ====
/-
  The algebra of the block-sparse product, over the extended reals.

  A sum over the 4096 columns splits into the 16 blocks of 256. In a row of the dense product, an input block that is
  one of the output block's five neighbours contributes that direction's 256-term sum, and every other input block
  meets only zero weights; products with zero vanish on the extended reals whatever the other factor, so no finiteness
  is needed. Because a node's five neighbours are distinct, the dense grid's nested conditions select exactly one
  direction at a neighbour.
-/
import proofs.«137747_j29446295781761_2_alg».proof.Proof.Spec
import Idealize.ShloMosaic.PureOps.Ideal
import Idealize.ShloMosaic.Lib.ValueIdx

noncomputable section

namespace Cert.Hypercube

open Idealize.ShloMosaic Idealize.ShloMosaic.ValueIdx
open scoped BigOperators

/-! ## The 4096 columns as 16 blocks of 256 -/

/-- A column is a pair (block, place inside the block). -/
def colEquiv : Fin 16 × Fin 256 ≃ Fin 4096 where
  toFun p := col p.1 p.2
  invFun c := (blockOf c, within c)
  left_inv p := Prod.ext (blockOf_col p.1 p.2) (within_col p.1 p.2)
  right_inv c := col_blockOf_within c

/-- A sum over the 4096 columns is the sum over the 16 blocks of the sums over each block's 256 columns. -/
theorem sum_cols {M : Type*} [AddCommMonoid M] (f : Fin 4096 → M) :
    ∑ k : Fin 4096, f k = ∑ B : Fin 16, ∑ i : Fin 256, f (col B i) := by
  rw [← Equiv.sum_comp colEquiv f, Fintype.sum_prod_type]
  rfl

/-! ## A node's five neighbours are distinct -/

/-- Flipping different bits (or none) of a node gives different nodes. -/
theorem nbr_injective (A : Fin 16) : Function.Injective (nbr A) := by
  revert A; decide

/-- The ten inequalities between a node's five neighbours. -/
theorem nbr_ne (A : Fin 16) :
    nbr A 0 ≠ nbr A 1 ∧ nbr A 0 ≠ nbr A 2 ∧ nbr A 0 ≠ nbr A 3 ∧ nbr A 0 ≠ nbr A 4 ∧
    nbr A 1 ≠ nbr A 2 ∧ nbr A 1 ≠ nbr A 3 ∧ nbr A 1 ≠ nbr A 4 ∧
    nbr A 2 ≠ nbr A 3 ∧ nbr A 2 ≠ nbr A 4 ∧ nbr A 3 ≠ nbr A 4 := by
  have hi := nbr_injective A
  refine ⟨hi.ne ?_, hi.ne ?_, hi.ne ?_, hi.ne ?_, hi.ne ?_, hi.ne ?_, hi.ne ?_, hi.ne ?_, hi.ne ?_, hi.ne ?_⟩ <;> decide

/-! ## The dense grid's rows -/

/-- At the neighbour in direction `t` the dense grid holds direction `t`'s matrix: the other four conditions fail
    because the neighbours are distinct. -/
theorem Wc_nbr (w : (⟨4, ![5, 16, 256, 256]⟩ : Shape).Idx → EReal) (A : Fin 16) (t : Fin 5) (o k : Fin 256) :
    Wc w A (nbr A t) o k = w (ix4 t (nbr A t) o k) := by
  have hi := nbr_injective A
  have h0 : Wc w A (nbr A 0) o k = w (ix4 0 (nbr A 0) o k) := by
    unfold Wc
    rw [if_neg (hi.ne (by decide)), if_neg (hi.ne (by decide)), if_neg (hi.ne (by decide)),
      if_neg (hi.ne (by decide)), if_pos rfl]
  have h1 : Wc w A (nbr A 1) o k = w (ix4 1 (nbr A 1) o k) := by
    unfold Wc
    rw [if_neg (hi.ne (by decide)), if_neg (hi.ne (by decide)), if_neg (hi.ne (by decide)), if_pos rfl]
  have h2 : Wc w A (nbr A 2) o k = w (ix4 2 (nbr A 2) o k) := by
    unfold Wc
    rw [if_neg (hi.ne (by decide)), if_neg (hi.ne (by decide)), if_pos rfl]
  have h3 : Wc w A (nbr A 3) o k = w (ix4 3 (nbr A 3) o k) := by
    unfold Wc
    rw [if_neg (hi.ne (by decide)), if_pos rfl]
  have h4 : Wc w A (nbr A 4) o k = w (ix4 4 (nbr A 4) o k) := by
    unfold Wc
    rw [if_pos rfl]
  match t with
  | ⟨0, _⟩ => exact h0
  | ⟨1, _⟩ => exact h1
  | ⟨2, _⟩ => exact h2
  | ⟨3, _⟩ => exact h3
  | ⟨4, _⟩ => exact h4

/-- Away from the five neighbours the dense grid is zero. -/
theorem Wc_off (w : (⟨4, ![5, 16, 256, 256]⟩ : Shape).Idx → EReal) (A B : Fin 16) (o k : Fin 256)
    (h : ∀ t, B ≠ nbr A t) : Wc w A B o k = 0 := by
  unfold Wc
  rw [if_neg (h 4), if_neg (h 3), if_neg (h 2), if_neg (h 1), if_neg (h 0)]

/-- One input block's share of a row of the dense product: direction `t`'s contribution when the block is the
    neighbour in direction `t` (there is at most one such `t`), and a sum of products with zero otherwise. -/
theorem block_sum {R : ℕ} (x : (⟨2, ![R, 4096]⟩ : Shape).Idx → EReal) (w : (⟨4, ![5, 16, 256, 256]⟩ : Shape).Idx → EReal)
    (r : Fin R) (A B : Fin 16) (o : Fin 256) :
    ∑ i : Fin 256, x (ix2 r (col B i)) * Wc w A B o i = ∑ t : Fin 5, if B = nbr A t then term x w r A o t else 0 := by
  by_cases h : ∃ t, B = nbr A t
  · obtain ⟨t, rfl⟩ := h
    have hiff : ∀ s, (nbr A t = nbr A s) ↔ (t = s) := fun s => (nbr_injective A).eq_iff
    simp only [hiff, Finset.sum_ite_eq, Finset.mem_univ, if_true]
    unfold term
    exact Finset.sum_congr rfl fun i _ => by rw [Wc_nbr]
  · have h' : ∀ t, B ≠ nbr A t := fun t ht => h ⟨t, ht⟩
    rw [Finset.sum_eq_zero (fun i _ => by rw [Wc_off w A B o i h', mul_zero]),
      Finset.sum_eq_zero (fun t _ => if_neg (h' t))]

/-- A row of the dense product is the five directions' contributions: every input block other than the five
    neighbours meets zero weights, and products with zero vanish on the extended reals whatever the other factor. -/
theorem sparse_row {R : ℕ} (x : (⟨2, ![R, 4096]⟩ : Shape).Idx → EReal) (w : (⟨4, ![5, 16, 256, 256]⟩ : Shape).Idx → EReal)
    (r : Fin R) (A : Fin 16) (o : Fin 256) :
    ∑ B : Fin 16, ∑ i : Fin 256, x (ix2 r (col B i)) * Wc w A B o i
      = term x w r A o 0 + term x w r A o 1 + term x w r A o 2 + term x w r A o 3 + term x w r A o 4 := by
  rw [Finset.sum_congr rfl (fun B _ => block_sum x w r A B o), Finset.sum_comm]
  simp only [Finset.sum_ite_eq', Finset.mem_univ, if_true]
  exact Fin.sum_univ_five _

end Cert.Hypercube

end
-- ==== Proof.RTail.lean ====
/-
  The reference program's last steps read at one element.

  The reference lays the weights out as a dense 16 x 16 grid of 256 x 256 blocks, moves the axes so that the grid becomes a
  4096 x 4096 matrix, transposes it, multiplies the input by it with one contraction over all 4096 columns, and adds the
  bias along the rows. Read at row `r`, column `c`, the matrix entry met by input column `k` is the dense grid's entry at
  block row `c / 256`, block column `k / 256`, place `(c % 256, k % 256)`. Cutting the 4096-term sum into the 16 blocks and
  dropping the blocks whose weights are zero leaves the five 256-term sums of the specification.
-/
import proofs.«137747_j29446295781761_2_alg».proof.Proof.Spec
import proofs.«137747_j29446295781761_2_alg».proof.Proof.SumAlgebra
import proofs.«137747_j29446295781761_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Hypercube.Ref

open Idealize.ShloMosaic Idealize.ShloMosaic.ValueIdx Cert.ReferenceIdeal Cert.ReferenceIdeal.Read
open scoped BigOperators

/-! ## The index arithmetic -/

/-- The input element the contraction meets at step `k` of row `r`: row `r`, column `k`. -/
theorem lidx_eq (r : Fin 8192) (c k : Fin 4096) : lidx_main_v93 (ix2 r c) k = ix2 r k := by
  funext a
  match a with
  | ⟨0, _⟩ => rfl
  | ⟨1, _⟩ => rfl

/-- The dense grid's entry the contraction meets at step `k` of column `c`. The two transpositions and the reshape send
    the matrix position `(k, c)` to the flat offset `4096 c + k` of the array of extents 16, 256, 16, 256, whose
    coordinates are `c / 256`, `c % 256`, `k / 256`, `k % 256`; the first transposition swaps the middle two. -/
theorem widx_eq (r : Fin 8192) (c k : Fin 4096) :
    idx_main_v90 (idx_main_v91 (idx_main_v92 (ridx_main_v93 (ix2 r c) k)))
      = ix4 (blockOf c) (blockOf k) (within c) (within k) := by
  have hc : c.val < 4096 := c.isLt
  have hk : k.val < 4096 := k.isLt
  funext a
  refine Fin.ext ?_
  match a with
  | ⟨0, _⟩ => show (c.val * 4096 + k.val) / 1048576 = c.val / 256; omega
  | ⟨1, _⟩ => show (c.val * 4096 + k.val) / 256 % 16 = k.val / 256; omega
  | ⟨2, _⟩ => show (c.val * 4096 + k.val) / 4096 % 256 = c.val % 256; omega
  | ⟨3, _⟩ => show (c.val * 4096 + k.val) % 256 = k.val % 256; omega

/-- The bias element added at column `c` of any row. -/
theorem bidx_eq (r : Fin 8192) (c : Fin 4096) : idx_main_v94 (idx_main_v95 (ix2 r c)) = ix1 c := by
  funext a
  match a with
  | ⟨0, _⟩ => rfl

/-! ## One entry of the transposed dense matrix, and one summand of the contraction -/

/-- The matrix entry met by input column `k` in output column `c` is the dense grid's entry at block row `c / 256`,
    block column `k / 256`. -/
theorem weight_at (hw : (⟨S5x16x256x256, .f32⟩ : BufTy).Contents (Elt Ideal))
    (hW : val_main_v89 (F := Ideal) hw = W hw) (r : Fin 8192) (c k : Fin 4096) :
    val_main_v92 (F := Ideal) hw (ridx_main_v93 (ix2 r c) k) = Wc hw (blockOf c) (blockOf k) (within c) (within k) := by
  rw [val_main_v92_apply, val_main_v91_apply, val_main_v90_apply, hW, widx_eq]
  rfl

/-! ## The result -/

/-- The reference's result is the specification's function of the input, the weights and the bias, given that its
    dense weight array is the specification's grid. -/
theorem result_eq
    (x : (⟨Cert.ReferenceIdeal.S8192x4096, .f32⟩ : BufTy).Contents (Elt Ideal))
    (hw : (⟨Cert.ReferenceIdeal.S5x16x256x256, .f32⟩ : BufTy).Contents (Elt Ideal))
    (b : (⟨Cert.ReferenceIdeal.S4096, .f32⟩ : BufTy).Contents (Elt Ideal))
    (hW : Cert.ReferenceIdeal.Read.val_main_v89 (F := Ideal) hw = Cert.Hypercube.W hw) :
    Cert.ReferenceIdeal.Read.val_main_v96 (F := Ideal) x hw b
      = Cert.Hypercube.G (R := 8192) x hw (fun c => b (Idealize.ShloMosaic.ValueIdx.ix1 c)) := by
  funext j
  obtain ⟨r, c, rfl⟩ : ∃ (r : Fin 8192) (c : Fin 4096), j = ix2 r c := ⟨j 0, j 1, eq_ix2 j⟩
  rw [val_main_v96_apply, val_main_v93_apply, val_main_v95_apply, val_main_v94_apply, bidx_eq]
  have hterm : ∀ k : Fin 4096,
      x (lidx_main_v93 (ix2 r c) k) * val_main_v92 (F := Ideal) hw (ridx_main_v93 (ix2 r c) k)
        = x (ix2 r k) * Wc hw (blockOf c) (blockOf k) (within c) (within k) := fun k => by
    rw [lidx_eq, weight_at hw hW]
  have hsum : ∑ k : Fin 4096, x (lidx_main_v93 (ix2 r c) k) * val_main_v92 (F := Ideal) hw (ridx_main_v93 (ix2 r c) k)
      = term (R := 8192) x hw r (blockOf c) (within c) 0 + term (R := 8192) x hw r (blockOf c) (within c) 1
        + term (R := 8192) x hw r (blockOf c) (within c) 2 + term (R := 8192) x hw r (blockOf c) (within c) 3
        + term (R := 8192) x hw r (blockOf c) (within c) 4 := by
    rw [Finset.sum_congr rfl (fun k _ => hterm k), sum_cols]
    simp only [blockOf_col, within_col]
    exact sparse_row (R := 8192) x hw r (blockOf c) (within c)
  rw [hsum, Ideal.addf_def]
  rfl

end Cert.Hypercube.Ref

end
-- ==== Proof.lean ====
/-
  The kernel and its reference compute one function on the extended reals.

  y = x · Wᵀ + b, where the 4096 × 4096 matrix W is block-sparse on a 16-node hypercube: cut rows and columns into 16
  blocks of 256; block (A, B) of W is nonzero only when B is A or one of A's four neighbours A xor 1, A xor 2, A xor 4,
  A xor 8, and is then the 256 × 256 matrix that direction carries for input block B (`Spec.lean`: `W`, `G`).

  The kernel, for each block of 512 rows, forms every output column block A as the sum over the five directions of
  (the neighbour's column block of x) · (that direction's matrix)ᵀ, then adds the bias: five sums of 256 products each
  (`KBody.lean` reads the body's sixteen stores as `G` of the staged blocks; `KValue.lean` reads the sixteen row
  blocks back as `G` of the whole arrays). The reference scatters the five directions' matrices into a dense grid of
  blocks (`RWeight.lean`: that grid is `W`), lays it out as a 4096 × 4096 matrix and takes ONE product over all 4096
  columns (`RTail.lean`). The two agree because a sum over 4096 columns is the sum over the 16 blocks of the sums inside
  each block, and the eleven blocks that are not neighbours contribute products with zero (`SumAlgebra.lean`); only
  commutativity and associativity of + and x · 0 = 0 are used, which hold for every extended real, so the finiteness
  of the inputs is never opened. Changes of float format are the identity on the extended reals, so nothing was
  rewritten in the idealized kernel and `preserves` is trivial. The three frames are the generated ones.
-/
import proofs.«137747_j29446295781761_2_alg».proof.Defs
import proofs.«137747_j29446295781761_2_alg».proof.Proof.Gen.Kernel
import proofs.«137747_j29446295781761_2_alg».proof.Proof.Gen.Kernel.Skeleton
import proofs.«137747_j29446295781761_2_alg».proof.Proof.Gen.Kernel.Launch
import proofs.«137747_j29446295781761_2_alg».proof.Proof.Gen.Kernel.Points
import proofs.«137747_j29446295781761_2_alg».proof.Proof.Gen.Kernel.Frame
import proofs.«137747_j29446295781761_2_alg».proof.Proof.Gen.KernelIdeal
import proofs.«137747_j29446295781761_2_alg».proof.Proof.Gen.KernelIdeal.Skeleton
import proofs.«137747_j29446295781761_2_alg».proof.Proof.Gen.KernelIdeal.Launch
import proofs.«137747_j29446295781761_2_alg».proof.Proof.Gen.KernelIdeal.Points
import proofs.«137747_j29446295781761_2_alg».proof.Proof.Gen.KernelIdeal.Frame
import proofs.«137747_j29446295781761_2_alg».proof.Proof.Gen.ReferenceIdeal
import proofs.«137747_j29446295781761_2_alg».proof.Proof.Gen.Pre_finite_inputs
import proofs.«137747_j29446295781761_2_alg».proof.Proof.Gen.KernelIdeal.Value
import proofs.«137747_j29446295781761_2_alg».proof.Proof.Gen.ReferenceIdeal.Run
import proofs.«137747_j29446295781761_2_alg».proof.Proof.Gen.ReferenceIdeal.Read
import proofs.«137747_j29446295781761_2_alg».proof.Proof.Spec
import proofs.«137747_j29446295781761_2_alg».proof.Proof.KBody
import proofs.«137747_j29446295781761_2_alg».proof.Proof.KValue
import proofs.«137747_j29446295781761_2_alg».proof.Proof.RWeight
import proofs.«137747_j29446295781761_2_alg».proof.Proof.RTail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in the idealized kernel. -/
theorem preserves : Cert.preserves_Kernel_KernelIdeal := trivial

/-- Both results are the hypercube function `G` of the argument arrays, on which the two memories agree. -/
theorem algebraic : Cert.algebraic_KernelIdeal_ReferenceIdeal := by
  intro m ρ m' ρ' _ hagree
  refine ⟨fun c => Cert.Hypercube.Kernel.result m c,
    Cert.Hypercube.Kernel.run m ρ Cert.Hypercube.Kernel.out_eq, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, Cert.Hypercube.Ref.result_eq _ _ _ (Cert.Hypercube.Ref.dense_eq _),
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
